-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x77x768 : Shape := ⟨3, ![16, 77, 768]⟩
abbrev S1024x1024 : Shape := ⟨2, ![1024, 1024]⟩
abbrev S1024 : Shape := ⟨1, ![1024]⟩
abbrev S1024x768 : Shape := ⟨2, ![1024, 768]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x77x768 : S_.BroadcastsInDim S16x77x768 (![] : Fin 0 → Fin S16x77x768.rank)
  reducesTo_S16x77x768_S_d0_1_2 : S16x77x768.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x768 : S_.BroadcastsInDim S1024x768 (![] : Fin 0 → Fin S1024x768.rank)
  reducesTo_S1024x768_S_d0_1 : S1024x768.ReducesTo [0, 1] S_

variable [Facts]

def fn_part2 {F : FTy → Type} [FloatOps F] (main_arg7 : FVec F S1024 .f32) (main_arg8 : FVec F S1024x1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S1024x768 .f32) (main_arg5 : FVec F S1024 .f32) (main_arg6 : FVec F S1024x768 .f32) (main_arg7 : FVec F S1024 .f32) (main_arg8 : FVec F S1024x1024 .f32) (main_arg9 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x768 .f32 := Host.absf main_arg4
  let main_cst_6 : FVec F S_ .f32 := constant S_ .f32 0x7F800000#32
  let main_v20 : FVec F S1024x768 .f32 := broadcastInDim S1024x768 ![] bcast_S_S1024x768 main_cst_6
  let main_v21 : IVec S1024x768 1 := cmpf .olt main_v19 main_v20
  let main_c_7 : IVec S_ 1 := constantI S_ 1 1#1
  let main_v22 : IVec S_ 1 := (fun x v => Host.reduce IntOp.andi x v reducesTo_S1024x768_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x768 .f32 := Host.absf main_arg6
  let main_cst_10 : FVec F S_ .f32 := constant S_ .f32 0x7F800000#32
  let main_v30 : FVec F S1024x768 .f32 := broadcastInDim S1024x768 ![] bcast_S_S1024x768 main_cst_10
  let main_v31 : IVec S1024x768 1 := cmpf .olt main_v29 main_v30
  let main_c_11 : IVec S_ 1 := constantI S_ 1 1#1
  let main_v32 : IVec S_ 1 := (fun x v => Host.reduce IntOp.andi x v reducesTo_S1024x768_S_d0_1 h_S_) main_v31 main_c_11
  let main_v33 : IVec S_ 1 := andi main_v28 main_v32
  fn_part2 (F := F) main_arg7 main_arg8 main_arg9 main_v33

def fn {F : FTy → Type} [FloatOps F] (main_arg0 : FVec F S16x4096x1024 .f32) (main_arg1 : FVec F S16x77x768 .f32) (main_arg2 : FVec F S1024x1024 .f32) (main_arg3 : FVec F S1024 .f32) (main_arg4 : FVec F S1024x768 .f32) (main_arg5 : FVec F S1024 .f32) (main_arg6 : FVec F S1024x768 .f32) (main_arg7 : FVec F S1024 .f32) (main_arg8 : FVec F S1024x1024 .f32) (main_arg9 : FVec F S1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x77x768 .f32 := Host.absf main_arg1
  let main_cst_0 : FVec F S_ .f32 := constant S_ .f32 0x7F800000#32
  let main_v5 : FVec F S16x77x768 .f32 := broadcastInDim S16x77x768 ![] bcast_S_S16x77x768 main_cst_0
  let main_v6 : IVec S16x77x768 1 := cmpf .olt main_v4 main_v5
  let main_c_1 : IVec S_ 1 := constantI S_ 1 1#1
  let main_v7 : IVec S_ 1 := (fun x v => Host.reduce IntOp.andi x v reducesTo_S16x77x768_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_v13 main_v16
-- ==== Kernel.lean ====
abbrev S16x4096x1024 : Shape := ⟨3, ![16, 4096, 1024]⟩
abbrev S16x77x768 : Shape := ⟨3, ![16, 77, 768]⟩
abbrev S1024x1024 : Shape := ⟨2, ![1024, 1024]⟩
abbrev S1024 : Shape := ⟨1, ![1024]⟩
abbrev S1024x768 : Shape := ⟨2, ![1024, 768]⟩
abbrev S65536x1024 : Shape := ⟨2, ![65536, 1024]⟩
abbrev S1x1024 : Shape := ⟨2, ![1, 1024]⟩
abbrev S1232x768 : Shape := ⟨2, ![1232, 768]⟩
abbrev S768x1024 : Shape := ⟨2, ![768, 1024]⟩
abbrev S1232x1024 : Shape := ⟨2, ![1232, 1024]⟩
abbrev S16x77x1024 : Shape := ⟨3, ![16, 77, 1024]⟩
abbrev S16x16x4096x64 : Shape := ⟨4, ![16, 16, 4096, 64]⟩
abbrev S1x512x1024 : Shape := ⟨3, ![1, 512, 1024]⟩
abbrev S1x77x1024 : Shape := ⟨3, ![1, 77, 1024]⟩
abbrev S1x16x512x64 : Shape := ⟨4, ![1, 16, 512, 64]⟩
abbrev S1x512x64 : Shape := ⟨3, ![1, 512, 64]⟩
abbrev S512x64 : Shape := ⟨2, ![512, 64]⟩
abbrev S1x77x64 : Shape := ⟨3, ![1, 77, 64]⟩
abbrev S77x64 : Shape := ⟨2, ![77, 64]⟩
abbrev S64x77 : Shape := ⟨2, ![64, 77]⟩
abbrev S512x77 : Shape := ⟨2, ![512, 77]⟩
abbrev S512 : Shape := ⟨1, ![512]⟩
abbrev S512x1 : Shape := ⟨2, ![512, 1]⟩
abbrev S1x1x512x64 : Shape := ⟨4, ![1, 1, 512, 64]⟩

abbrev nBuf : Space → Nat
  | .hbm => 27
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S16x77x768, .f32⟩
  | .hbm, ⟨2, _⟩ => ⟨S1024x1024, .f32⟩
  | .hbm, ⟨3, _⟩ => ⟨S1024, .f32⟩
  | .hbm, ⟨4, _⟩ => ⟨S1024x768, .f32⟩
  | .hbm, ⟨5, _⟩ => ⟨S1024, .f32⟩
  | .hbm, ⟨6, _⟩ => ⟨S1024x768, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S65536x1024, .f32⟩
  | .hbm, ⟨11, _⟩ => ⟨S1024x1024, .f32⟩
  | .hbm, ⟨12, _⟩ => ⟨S1024x1024, .bf16⟩
  | .hbm, ⟨13, _⟩ => ⟨S65536x1024, .bf16⟩
  | .hbm, ⟨14, _⟩ => ⟨S1232x768, .f32⟩
  | .hbm, ⟨15, _⟩ => ⟨S768x1024, .f32⟩
  | .hbm, ⟨16, _⟩ => ⟨S768x1024, .bf16⟩
  | .hbm, ⟨17, _⟩ => ⟨S1232x1024, .bf16⟩
  | .hbm, ⟨18, _⟩ => ⟨S16x4096x1024, .bf16⟩
  | .hbm, ⟨19, _⟩ => ⟨S16x77x1024, .bf16⟩
  | .hbm, ⟨20, _⟩ => ⟨S16x16x4096x64, .bf16⟩
  | .hbm, ⟨21, _⟩ => ⟨S16x4096x1024, .bf16⟩
  | .hbm, ⟨22, _⟩ => ⟨S65536x1024, .bf16⟩
  | .hbm, ⟨23, _⟩ => ⟨S1024x1024, .f32⟩
  | .hbm, ⟨24, _⟩ => ⟨S1024x1024, .bf16⟩
  | .hbm, ⟨25, _⟩ => ⟨S65536x1024, .f32⟩
  | .hbm, ⟨26, _⟩ => ⟨S16x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1232x768, .f32⟩
  | .local _ .vmem, ⟨7, _⟩ => ⟨S768x1024, .bf16⟩
  | .local _ .vmem, ⟨8, _⟩ => ⟨S1024, .f32⟩
  | .local _ .vmem, ⟨9, _⟩ => ⟨S1232x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x77x1024, .bf16⟩
  | .local _ .vmem, ⟨13, _⟩ => ⟨S1x77x1024, .bf16⟩
  | .local _ .vmem, ⟨14, _⟩ => ⟨S1x16x512x64, .bf16⟩
  | .local _ .vmem, ⟨15, _⟩ => ⟨S1x16x512x64, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024, .f32⟩
  | .local _ .vmem, ⟨20, _⟩ => ⟨S1024x1024, .f32⟩
  | .local _ .vmem, ⟨21, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1232x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S768x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1232x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev grid2 : Pipeline.Grid := ⟨2, ![16, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x77x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x16x512x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S16x4096x1024_S65536x1024 : S16x4096x1024.ShapeCasts S65536x1024
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S16x77x768_S1232x768 : S16x77x768.ShapeCasts S1232x768
  transposes_S1024x768_S768x1024_1_0 : S1024x768.Transposes [1, 0] S768x1024
  inb_S1232x768_S1232x768_0_0 : ∀ a, (![0, 0] : Fin 2 → Nat) a + S1232x768.size a ≤ S1232x768.size a
  h_S1232x768 : 0 < S1232x768.numel
  shapeCasts_S1232x768_S1232x768 : S1232x768.ShapeCasts S1232x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  broadcasts_S1x1024_S1232x1024 : S1x1024.Broadcasts S1232x1024
  inb_S1232x1024_S1232x1024_0_0 : ∀ a, (![0, 0] : Fin 2 → Nat) a + S1232x1024.size a ≤ S1232x1024.size a
  h_S1232x1024 : 0 < S1232x1024.numel
  packedbf16_S1232x1024_S1232x1024_0_0 : (Rect.unit (s := S1232x1024) ![0, 0] S1232x1024.size inb_S1232x1024_S1232x1024_0_0).PackedRows (EltTy.packing .bf16)
  shapeCasts_S65536x1024_S16x4096x1024 : S65536x1024.ShapeCasts S16x4096x1024
  shapeCasts_S1232x1024_S16x77x1024 : S1232x1024.ShapeCasts S16x77x1024
  inb_S1x512x1024_S1x512x64_0_0_0 : ∀ a, (![0, 0, 0] : Fin 3 → Nat) a + S1x512x64.size a ≤ S1x512x1024.size a
  h_S1x512x64 : 0 < S1x512x64.numel
  shapeCasts_S1x512x64_S512x64 : S1x512x64.ShapeCasts S512x64
  inb_S1x77x1024_S1x77x64_0_0_0 : ∀ a, (![0, 0, 0] : Fin 3 → Nat) a + S1x77x64.size a ≤ S1x77x1024.size a
  h_S1x77x64 : 0 < S1x77x64.numel
  shapeCasts_S1x77x64_S77x64 : S1x77x64.ShapeCasts S77x64
  transposes_S77x64_p1_0_S64x77 : S77x64.Transposes [1, 0] S64x77
  reduces_S512x77_S512 : S512x77.Reduces [1] S512
  shapeCasts_S512_S512x1 : S512.ShapeCasts S512x1
  broadcasts_S512x1_S512x77 : S512x1.Broadcasts S512x77
  inb_S1x16x512x64_S1x1x512x64_0_0_0_0 : ∀ a, (![0, 0, 0, 0] : Fin 4 → Nat) a + S1x1x512x64.size a ≤ S1x16x512x64.size a
  h_S1x1x512x64 : 0 < S1x1x512x64.numel
  shapeCasts_S1x1x512x64_S512x64 : S1x1x512x64.ShapeCasts S512x64
  shapeCasts_S512x64_S1x1x512x64 : S512x64.ShapeCasts S1x1x512x64
  packedbf16_S1x16x512x64_S1x1x512x64_0_0_0_0 : (Rect.unit (s := S1x16x512x64) ![0, 0, 0, 0] S1x1x512x64.size inb_S1x16x512x64_S1x1x512x64_0_0_0_0).PackedRows (EltTy.packing .bf16)
  inb_S1x512x1024_S1x512x64_0_0_64 : ∀ a, (![0, 0, 64] : Fin 3 → Nat) a + S1x512x64.size a ≤ S1x512x1024.size a
  inb_S1x77x1024_S1x77x64_0_0_64 : ∀ a, (![0, 0, 64] : Fin 3 → Nat) a + S1x77x64.size a ≤ S1x77x1024.size a
  inb_S1x16x512x64_S1x1x512x64_0_1_0_0 : ∀ a, (![0, 1, 0, 0] : Fin 4 → Nat) a + S1x1x512x64.size a ≤ S1x16x512x64.size a
  packedbf16_S1x16x512x64_S1x1x512x64_0_1_0_0 : (Rect.unit (s := S1x16x512x64) ![0, 1, 0, 0] S1x1x512x64.size inb_S1x16x512x64_S1x1x512x64_0_1_0_0).PackedRows (EltTy.packing .bf16)
  inb_S1x512x1024_S1x512x64_0_0_128 : ∀ a, (![0, 0, 128] : Fin 3 → Nat) a + S1x512x64.size a ≤ S1x512x1024.size a
  inb_S1x77x1024_S1x77x64_0_0_128 : ∀ a, (![0, 0, 128] : Fin 3 → Nat) a + S1x77x64.size a ≤ S1x77x1024.size a
  inb_S1x16x512x64_S1x1x512x64_0_2_0_0 : ∀ a, (![0, 2, 0, 0] : Fin 4 → Nat) a + S1x1x512x64.size a ≤ S1x16x512x64.size a
  packedbf16_S1x16x512x64_S1x1x512x64_0_2_0_0 : (Rect.unit (s := S1x16x512x64) ![0, 2, 0, 0] S1x1x512x64.size inb_S1x16x512x64_S1x1x512x64_0_2_0_0).PackedRows (EltTy.packing .bf16)
  inb_S1x512x1024_S1x512x64_0_0_192 : ∀ a, (![0, 0, 192] : Fin 3 → Nat) a + S1x512x64.size a ≤ S1x512x1024.size a
  inb_S1x77x1024_S1x77x64_0_0_192 : ∀ a, (![0, 0, 192] : Fin 3 → Nat) a + S1x77x64.size a ≤ S1x77x1024.size a
  inb_S1x16x512x64_S1x1x512x64_0_3_0_0 : ∀ a, (![0, 3, 0, 0] : Fin 4 → Nat) a + S1x1x512x64.size a ≤ S1x16x512x64.size a
  packedbf16_S1x16x512x64_S1x1x512x64_0_3_0_0 : (Rect.unit (s := S1x16x512x64) ![0, 3, 0, 0] S1x1x512x64.size inb_S1x16x512x64_S1x1x512x64_0_3_0_0).PackedRows (EltTy.packing .bf16)
  inb_S1x512x1024_S1x512x64_0_0_256 : ∀ a, (![0, 0, 256] : Fin 3 → Nat) a + S1x512x64.size a ≤ S1x512x1024.size a
  inb_S1x77x1024_S1x77x64_0_0_256 : ∀ a, (![0, 0, 256] : Fin 3 → Nat) a + S1x77x64.size a ≤ S1x77x1024.size a
  inb_S1x16x512x64_S1x1x512x64_0_4_0_0 : ∀ a, (![0, 4, 0, 0] : Fin 4 → Nat) a + S1x1x512x64.size a ≤ S1x16x512x64.size a
  packedbf16_S1x16x512x64_S1x1x512x64_0_4_0_0 : (Rect.unit (s := S1x16x512x64) ![0, 4, 0, 0] S1x1x512x64.size inb_S1x16x512x64_S1x1x512x64_0_4_0_0).PackedRows (EltTy.packing .bf16)
  inb_S1x512x1024_S1x512x64_0_0_320 : ∀ a, (![0, 0, 320] : Fin 3 → Nat) a + S1x512x64.size a ≤ S1x512x1024.size a
  inb_S1x77x1024_S1x77x64_0_0_320 : ∀ a, (![0, 0, 320] : Fin 3 → Nat) a + S1x77x64.size a ≤ S1x77x1024.size a
  inb_S1x16x512x64_S1x1x512x64_0_5_0_0 : ∀ a, (![0, 5, 0, 0] : Fin 4 → Nat) a + S1x1x512x64.size a ≤ S1x16x512x64.size a
  packedbf16_S1x16x512x64_S1x1x512x64_0_5_0_0 : (Rect.unit (s := S1x16x512x64) ![0, 5, 0, 0] S1x1x512x64.size inb_S1x16x512x64_S1x1x512x64_0_5_0_0).PackedRows (EltTy.packing .bf16)
  inb_S1x512x1024_S1x512x64_0_0_384 : ∀ a, (![0, 0, 384] : Fin 3 → Nat) a + S1x512x64.size a ≤ S1x512x1024.size a
  inb_S1x77x1024_S1x77x64_0_0_384 : ∀ a, (![0, 0, 384] : Fin 3 → Nat) a + S1x77x64.size a ≤ S1x77x1024.size a
  inb_S1x16x512x64_S1x1x512x64_0_6_0_0 : ∀ a, (![0, 6, 0, 0] : Fin 4 → Nat) a + S1x1x512x64.size a ≤ S1x16x512x64.size a
  packedbf16_S1x16x512x64_S1x1x512x64_0_6_0_0 : (Rect.unit (s := S1x16x512x64) ![0, 6, 0, 0] S1x1x512x64.size inb_S1x16x512x64_S1x1x512x64_0_6_0_0).PackedRows (EltTy.packing .bf16)
  inb_S1x512x1024_S1x512x64_0_0_448 : ∀ a, (![0, 0, 448] : Fin 3 → Nat) a + S1x512x64.size a ≤ S1x512x1024.size a
  inb_S1x77x1024_S1x77x64_0_0_448 : ∀ a, (![0, 0, 448] : Fin 3 → Nat) a + S1x77x64.size a ≤ S1x77x1024.size a
  inb_S1x16x512x64_S1x1x512x64_0_7_0_0 : ∀ a, (![0, 7, 0, 0] : Fin 4 → Nat) a + S1x1x512x64.size a ≤ S1x16x512x64.size a
  packedbf16_S1x16x512x64_S1x1x512x64_0_7_0_0 : (Rect.unit (s := S1x16x512x64) ![0, 7, 0, 0] S1x1x512x64.size inb_S1x16x512x64_S1x1x512x64_0_7_0_0).PackedRows (EltTy.packing .bf16)
  inb_S1x512x1024_S1x512x64_0_0_512 : ∀ a, (![0, 0, 512] : Fin 3 → Nat) a + S1x512x64.size a ≤ S1x512x1024.size a
  inb_S1x77x1024_S1x77x64_0_0_512 : ∀ a, (![0, 0, 512] : Fin 3 → Nat) a + S1x77x64.size a ≤ S1x77x1024.size a
  inb_S1x16x512x64_S1x1x512x64_0_8_0_0 : ∀ a, (![0, 8, 0, 0] : Fin 4 → Nat) a + S1x1x512x64.size a ≤ S1x16x512x64.size a
  packedbf16_S1x16x512x64_S1x1x512x64_0_8_0_0 : (Rect.unit (s := S1x16x512x64) ![0, 8, 0, 0] S1x1x512x64.size inb_S1x16x512x64_S1x1x512x64_0_8_0_0).PackedRows (EltTy.packing .bf16)
  inb_S1x512x1024_S1x512x64_0_0_576 : ∀ a, (![0, 0, 576] : Fin 3 → Nat) a + S1x512x64.size a ≤ S1x512x1024.size a
  inb_S1x77x1024_S1x77x64_0_0_576 : ∀ a, (![0, 0, 576] : Fin 3 → Nat) a + S1x77x64.size a ≤ S1x77x1024.size a
  inb_S1x16x512x64_S1x1x512x64_0_9_0_0 : ∀ a, (![0, 9, 0, 0] : Fin 4 → Nat) a + S1x1x512x64.size a ≤ S1x16x512x64.size a
  packedbf16_S1x16x512x64_S1x1x512x64_0_9_0_0 : (Rect.unit (s := S1x16x512x64) ![0, 9, 0, 0] S1x1x512x64.size inb_S1x16x512x64_S1x1x512x64_0_9_0_0).PackedRows (EltTy.packing .bf16)
  inb_S1x512x1024_S1x512x64_0_0_640 : ∀ a, (![0, 0, 640] : Fin 3 → Nat) a + S1x512x64.size a ≤ S1x512x1024.size a
  inb_S1x77x1024_S1x77x64_0_0_640 : ∀ a, (![0, 0, 640] : Fin 3 → Nat) a + S1x77x64.size a ≤ S1x77x1024.size a
  inb_S1x16x512x64_S1x1x512x64_0_10_0_0 : ∀ a, (![0, 10, 0, 0] : Fin 4 → Nat) a + S1x1x512x64.size a ≤ S1x16x512x64.size a
  packedbf16_S1x16x512x64_S1x1x512x64_0_10_0_0 : (Rect.unit (s := S1x16x512x64) ![0, 10, 0, 0] S1x1x512x64.size inb_S1x16x512x64_S1x1x512x64_0_10_0_0).PackedRows (EltTy.packing .bf16)
  inb_S1x512x1024_S1x512x64_0_0_704 : ∀ a, (![0, 0, 704] : Fin 3 → Nat) a + S1x512x64.size a ≤ S1x512x1024.size a
  inb_S1x77x1024_S1x77x64_0_0_704 : ∀ a, (![0, 0, 704] : Fin 3 → Nat) a + S1x77x64.size a ≤ S1x77x1024.size a
  inb_S1x16x512x64_S1x1x512x64_0_11_0_0 : ∀ a, (![0, 11, 0, 0] : Fin 4 → Nat) a + S1x1x512x64.size a ≤ S1x16x512x64.size a
  packedbf16_S1x16x512x64_S1x1x512x64_0_11_0_0 : (Rect.unit (s := S1x16x512x64) ![0, 11, 0, 0] S1x1x512x64.size inb_S1x16x512x64_S1x1x512x64_0_11_0_0).PackedRows (EltTy.packing .bf16)
  inb_S1x512x1024_S1x512x64_0_0_768 : ∀ a, (![0, 0, 768] : Fin 3 → Nat) a + S1x512x64.size a ≤ S1x512x1024.size a
  inb_S1x77x1024_S1x77x64_0_0_768 : ∀ a, (![0, 0, 768] : Fin 3 → Nat) a + S1x77x64.size a ≤ S1x77x1024.size a
  inb_S1x16x512x64_S1x1x512x64_0_12_0_0 : ∀ a, (![0, 12, 0, 0] : Fin 4 → Nat) a + S1x1x512x64.size a ≤ S1x16x512x64.size a
  packedbf16_S1x16x512x64_S1x1x512x64_0_12_0_0 : (Rect.unit (s := S1x16x512x64) ![0, 12, 0, 0] S1x1x512x64.size inb_S1x16x512x64_S1x1x512x64_0_12_0_0).PackedRows (EltTy.packing .bf16)
  inb_S1x512x1024_S1x512x64_0_0_832 : ∀ a, (![0, 0, 832] : Fin 3 → Nat) a + S1x512x64.size a ≤ S1x512x1024.size a
  inb_S1x77x1024_S1x77x64_0_0_832 : ∀ a, (![0, 0, 832] : Fin 3 → Nat) a + S1x77x64.size a ≤ S1x77x1024.size a
  inb_S1x16x512x64_S1x1x512x64_0_13_0_0 : ∀ a, (![0, 13, 0, 0] : Fin 4 → Nat) a + S1x1x512x64.size a ≤ S1x16x512x64.size a
  packedbf16_S1x16x512x64_S1x1x512x64_0_13_0_0 : (Rect.unit (s := S1x16x512x64) ![0, 13, 0, 0] S1x1x512x64.size inb_S1x16x512x64_S1x1x512x64_0_13_0_0).PackedRows (EltTy.packing .bf16)
  inb_S1x512x1024_S1x512x64_0_0_896 : ∀ a, (![0, 0, 896] : Fin 3 → Nat) a + S1x512x64.size a ≤ S1x512x1024.size a
  inb_S1x77x1024_S1x77x64_0_0_896 : ∀ a, (![0, 0, 896] : Fin 3 → Nat) a + S1x77x64.size a ≤ S1x77x1024.size a
  inb_S1x16x512x64_S1x1x512x64_0_14_0_0 : ∀ a, (![0, 14, 0, 0] : Fin 4 → Nat) a + S1x1x512x64.size a ≤ S1x16x512x64.size a
  packedbf16_S1x16x512x64_S1x1x512x64_0_14_0_0 : (Rect.unit (s := S1x16x512x64) ![0, 14, 0, 0] S1x1x512x64.size inb_S1x16x512x64_S1x1x512x64_0_14_0_0).PackedRows (EltTy.packing .bf16)
  inb_S1x512x1024_S1x512x64_0_0_960 : ∀ a, (![0, 0, 960] : Fin 3 → Nat) a + S1x512x64.size a ≤ S1x512x1024.size a
  inb_S1x77x1024_S1x77x64_0_0_960 : ∀ a, (![0, 0, 960] : Fin 3 → Nat) a + S1x77x64.size a ≤ S1x77x1024.size a
  inb_S1x16x512x64_S1x1x512x64_0_15_0_0 : ∀ a, (![0, 15, 0, 0] : Fin 4 → Nat) a + S1x1x512x64.size a ≤ S1x16x512x64.size a
  packedbf16_S1x16x512x64_S1x1x512x64_0_15_0_0 : (Rect.unit (s := S1x16x512x64) ![0, 15, 0, 0] S1x1x512x64.size inb_S1x16x512x64_S1x1x512x64_0_15_0_0).PackedRows (EltTy.packing .bf16)
  shapeCasts_S16x16x4096x64_S16x4096x1024 : S16x16x4096x64.ShapeCasts S16x4096x1024
  dot_S1024x1024_S1024x1024_S1024x1024_1_0_0_1_n_n_wf : DotDims.WF S1024x1024 S1024x1024 S1024x1024 [1] [0] [0] [1] [] []
  dot_S1232x768_S768x1024_S1232x1024_1_0_0_1_n_n_wf : DotDims.WF S1232x768 S768x1024 S1232x1024 [1] [0] [0] [1] [] []
  dot_S512x64_S64x77_S512x77_1_0_0_1_n_n_wf : DotDims.WF S512x64 S64x77 S512x77 [1] [0] [0] [1] [] []
  dot_S512x77_S77x64_S512x64_1_0_0_1_n_n_wf : DotDims.WF S512x77 S77x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S65536x1024.size a
  hwx0_3 : ∀ i : grid0.Coords, EltTy.bits .bf16 = 32 ∨ (Rect.block (s := S65536x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 1
  hreads1_0 : ∀ i i' : grid1.Coords, (∀ a, reads1_0 a = true → i a = i' a) → cc1_transform_0 i = cc1_transform_0 i'
  hinb1_0 : ∀ (i : grid1.Coords) a, (cc1_transform_0 i a + 1) * S1232x768.size a ≤ S1232x768.size a
  hwx1_0 : ∀ i : grid1.Coords, EltTy.bits .f32 = 32 ∨ (Rect.block (s := S1232x768) S1232x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x1024.size a ≤ S768x1024.size a
  hwx1_1 : ∀ i : grid1.Coords, EltTy.bits .bf16 = 32 ∨ (Rect.block (s := S768x1024) S768x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1232x1024.size a ≤ S1232x1024.size a
  hwx1_3 : ∀ i : grid1.Coords, EltTy.bits .bf16 = 32 ∨ (Rect.block (s := S1232x1024) S1232x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S16x4096x1024.size a
  hwx2_0 : ∀ i : grid2.Coords, EltTy.bits .bf16 = 32 ∨ (Rect.block (s := S16x4096x1024) S1x512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x77x1024.size a ≤ S16x77x1024.size a
  hwx2_1 : ∀ i : grid2.Coords, EltTy.bits .bf16 = 32 ∨ (Rect.block (s := S16x77x1024) S1x77x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x16x512x64.size a ≤ S16x16x4096x64.size a
  hwx2_2 : ∀ i : grid2.Coords, EltTy.bits .bf16 = 32 ∨ (Rect.block (s := S16x16x4096x64) S1x16x512x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S65536x1024.size a
  hwx3_0 : ∀ i : grid3.Coords, EltTy.bits .bf16 = 32 ∨ (Rect.block (s := S65536x1024) S1024x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024.size a ≤ S1024.size a
  hwx3_2 : ∀ i : grid3.Coords, EltTy.bits .f32 = 32 ∨ (Rect.block (s := S1024) S1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S65536x1024.size a
  hwx3_3 : ∀ i : grid3.Coords, EltTy.bits .f32 = 32 ∨ (Rect.block (s := S65536x1024) S1024x1024.size (cc3_transform_3 i) (hinb3_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1232x768_S768x1024_S1232x1024_1_0_0_1_n_n : DotDims S1232x768 S768x1024 S1232x1024 where
  lhsContracting := [1]
  rhsContracting := [0]
  lhsNonContracting := [0]
  rhsNonContracting := [1]
  lhsBatch := []
  rhsBatch := []
  wf := dot_S1232x768_S768x1024_S1232x1024_1_0_0_1_n_n_wf
def dot_S512x64_S64x77_S512x77_1_0_0_1_n_n : DotDims S512x64 S64x77 S512x77 where
  lhsContracting := [1]
  rhsContracting := [0]
  lhsNonContracting := [0]
  rhsNonContracting := [1]
  lhsBatch := []
  rhsBatch := []
  wf := dot_S512x64_S64x77_S512x77_1_0_0_1_n_n_wf
def dot_S512x77_S77x64_S512x64_1_0_0_1_n_n : DotDims S512x77 S77x64 S512x64 where
  lhsContracting := [1]
  rhsContracting := [0]
  lhsNonContracting := [0]
  rhsNonContracting := [1]
  lhsBatch := []
  rhsBatch := []
  wf := dot_S512x77_S77x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1232x768.size cc1_transform_0 reads1_0 false false 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S768x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1232x1024.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1x77x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x16x512x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v12) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v15) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S16x4096x1024 : Shape := ⟨3, ![16, 4096, 1024]⟩
abbrev S16x77x768 : Shape := ⟨3, ![16, 77, 768]⟩
abbrev S1024x1024 : Shape := ⟨2, ![1024, 1024]⟩
abbrev S1024 : Shape := ⟨1, ![1024]⟩
abbrev S1024x768 : Shape := ⟨2, ![1024, 768]⟩
abbrev S1x1x1024 : Shape := ⟨3, ![1, 1, 1024]⟩
abbrev S16x77x1024 : Shape := ⟨3, ![16, 77, 1024]⟩
abbrev S16x4096x16x64 : Shape := ⟨4, ![16, 4096, 16, 64]⟩
abbrev S16x16x4096x64 : Shape := ⟨4, ![16, 16, 4096, 64]⟩
abbrev S16x77x16x64 : Shape := ⟨4, ![16, 77, 16, 64]⟩
abbrev S16x16x77x64 : Shape := ⟨4, ![16, 16, 77, 64]⟩
abbrev S16x16x4096x77 : Shape := ⟨4, ![16, 16, 4096, 77]⟩
abbrev S_ : Shape := ⟨0, ![]⟩
abbrev S16x16x4096 : Shape := ⟨3, ![16, 16, 4096]⟩
abbrev S16x16x4096x1 : Shape := ⟨4, ![16, 16, 4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x77x768, .f32⟩
  | .hbm, ⟨2, _⟩ => ⟨S1024x1024, .f32⟩
  | .hbm, ⟨3, _⟩ => ⟨S1024, .f32⟩
  | .hbm, ⟨4, _⟩ => ⟨S1024x768, .f32⟩
  | .hbm, ⟨5, _⟩ => ⟨S1024, .f32⟩
  | .hbm, ⟨6, _⟩ => ⟨S1024x768, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S16x4096x1024, .f32⟩
  | .hbm, ⟨11, _⟩ => ⟨S1x1x1024, .f32⟩
  | .hbm, ⟨12, _⟩ => ⟨S16x4096x1024, .f32⟩
  | .hbm, ⟨13, _⟩ => ⟨S16x4096x1024, .f32⟩
  | .hbm, ⟨14, _⟩ => ⟨S16x77x1024, .f32⟩
  | .hbm, ⟨15, _⟩ => ⟨S1x1x1024, .f32⟩
  | .hbm, ⟨16, _⟩ => ⟨S16x77x1024, .f32⟩
  | .hbm, ⟨17, _⟩ => ⟨S16x77x1024, .f32⟩
  | .hbm, ⟨18, _⟩ => ⟨S16x77x1024, .f32⟩
  | .hbm, ⟨19, _⟩ => ⟨S1x1x1024, .f32⟩
  | .hbm, ⟨20, _⟩ => ⟨S16x77x1024, .f32⟩
  | .hbm, ⟨21, _⟩ => ⟨S16x77x1024, .f32⟩
  | .hbm, ⟨22, _⟩ => ⟨S16x4096x16x64, .f32⟩
  | .hbm, ⟨23, _⟩ => ⟨S16x16x4096x64, .f32⟩
  | .hbm, ⟨24, _⟩ => ⟨S16x77x16x64, .f32⟩
  | .hbm, ⟨25, _⟩ => ⟨S16x16x77x64, .f32⟩
  | .hbm, ⟨26, _⟩ => ⟨S16x16x4096x77, .f32⟩
  | .hbm, ⟨27, _⟩ => ⟨S_, .f32⟩
  | .hbm, ⟨28, _⟩ => ⟨S16x16x4096x77, .f32⟩
  | .hbm, ⟨29, _⟩ => ⟨S16x16x4096x77, .f32⟩
  | .hbm, ⟨30, _⟩ => ⟨S_, .f32⟩
  | .hbm, ⟨31, _⟩ => ⟨S16x16x4096, .f32⟩
  | .hbm, ⟨32, _⟩ => ⟨S_, .f32⟩
  | .hbm, ⟨33, _⟩ => ⟨S16x16x4096, .f32⟩
  | .hbm, ⟨34, _⟩ => ⟨S16x16x4096, .f32⟩
  | .hbm, ⟨35, _⟩ => ⟨S16x16x4096x1, .f32⟩
  | .hbm, ⟨36, _⟩ => ⟨S16x16x4096x77, .f32⟩
  | .hbm, ⟨37, _⟩ => ⟨S16x16x4096x77, .f32⟩
  | .hbm, ⟨38, _⟩ => ⟨S16x16x4096x77, .f32⟩
  | .hbm, ⟨39, _⟩ => ⟨S_, .f32⟩
  | .hbm, ⟨40, _⟩ => ⟨S16x16x4096, .f32⟩
  | .hbm, ⟨41, _⟩ => ⟨S16x16x4096x1, .f32⟩
  | .hbm, ⟨42, _⟩ => ⟨S16x16x4096x77, .f32⟩
  | .hbm, ⟨43, _⟩ => ⟨S16x16x4096x77, .f32⟩
  | .hbm, ⟨44, _⟩ => ⟨S16x16x4096x64, .f32⟩
  | .hbm, ⟨45, _⟩ => ⟨S16x4096x1024, .f32⟩
  | .hbm, ⟨46, _⟩ => ⟨S16x4096x1024, .f32⟩
  | .hbm, ⟨47, _⟩ => ⟨S1x1x1024, .f32⟩
  | .hbm, ⟨48, _⟩ => ⟨S16x4096x1024, .f32⟩
  | .hbm, ⟨49, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  bcast_S1x1x1024_S16x77x1024_0_1_2 : S1x1x1024.BroadcastsInDim S16x77x1024 (![0, 1, 2] : Fin 3 → Fin S16x77x1024.rank)
  shapeCasts_S16x4096x1024_S16x4096x16x64 : S16x4096x1024.ShapeCasts S16x4096x16x64
  transposes_S16x4096x16x64_S16x16x4096x64_0_2_1_3 : S16x4096x16x64.Transposes [0, 2, 1, 3] S16x16x4096x64
  shapeCasts_S16x77x1024_S16x77x16x64 : S16x77x1024.ShapeCasts S16x77x16x64
  transposes_S16x77x16x64_S16x16x77x64_0_2_1_3 : S16x77x16x64.Transposes [0, 2, 1, 3] S16x16x77x64
  bcast_S_S16x16x4096x77 : S_.BroadcastsInDim S16x16x4096x77 (![] : Fin 0 → Fin S16x16x4096x77.rank)
  reducesTo_S16x16x4096x77_S16x16x4096_d3 : S16x16x4096x77.ReducesTo [3] S16x16x4096
  h_S_ : 0 < S_.numel
  bcast_S_S16x16x4096 : S_.BroadcastsInDim S16x16x4096 (![] : Fin 0 → Fin S16x16x4096.rank)
  bcast_S16x16x4096_S16x16x4096x1_0_1_2 : S16x16x4096.BroadcastsInDim S16x16x4096x1 (![0, 1, 2] : Fin 3 → Fin S16x16x4096x1.rank)
  bcast_S16x16x4096x1_S16x16x4096x77_0_1_2_3 : S16x16x4096x1.BroadcastsInDim S16x16x4096x77 (![0, 1, 2, 3] : Fin 4 → Fin S16x16x4096x77.rank)
  shapeCasts_S16x16x4096x64_S16x4096x1024 : S16x16x4096x64.ShapeCasts S16x4096x1024
  dot_S16x4096x1024_S1024x1024_S16x4096x1024_2_1_01_0_n_n_wf : DotDims.WF S16x4096x1024 S1024x1024 S16x4096x1024 [2] [1] [0, 1] [0] [] []
  dot_S16x77x768_S1024x768_S16x77x1024_2_1_01_0_n_n_wf : DotDims.WF S16x77x768 S1024x768 S16x77x1024 [2] [1] [0, 1] [0] [] []
  dot_S16x16x4096x64_S16x16x77x64_S16x16x4096x77_3_3_2_2_01_01_wf : DotDims.WF S16x16x4096x64 S16x16x77x64 S16x16x4096x77 [3] [3] [2] [2] [0, 1] [0, 1]
  dot_S16x16x4096x77_S16x16x77x64_S16x16x4096x64_3_2_2_3_01_01_wf : DotDims.WF S16x16x4096x77 S16x16x77x64 S16x16x4096x64 [3] [2] [2] [3] [0, 1] [0, 1]

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf
def dot_S16x77x768_S1024x768_S16x77x1024_2_1_01_0_n_n : DotDims S16x77x768 S1024x768 S16x77x1024 where
  lhsContracting := [2]
  rhsContracting := [1]
  lhsNonContracting := [0, 1]
  rhsNonContracting := [0]
  lhsBatch := []
  rhsBatch := []
  wf := dot_S16x77x768_S1024x768_S16x77x1024_2_1_01_0_n_n_wf
def dot_S16x16x4096x64_S16x16x77x64_S16x16x4096x77_3_3_2_2_01_01 : DotDims S16x16x4096x64 S16x16x77x64 S16x16x4096x77 where
  lhsContracting := [3]
  rhsContracting := [3]
  lhsNonContracting := [2]
  rhsNonContracting := [2]
  lhsBatch := [0, 1]
  rhsBatch := [0, 1]
  wf := dot_S16x16x4096x64_S16x16x77x64_S16x16x4096x77_3_3_2_2_01_01_wf
def dot_S16x16x4096x77_S16x16x77x64_S16x16x4096x64_3_2_2_3_01_01 : DotDims S16x16x4096x77 S16x16x77x64 S16x16x4096x64 where
  lhsContracting := [3]
  rhsContracting := [2]
  lhsNonContracting := [2]
  rhsNonContracting := [3]
  lhsBatch := [0, 1]
  rhsBatch := [0, 1]
  wf := dot_S16x16x4096x77_S16x16x77x64_S16x16x4096x64_3_2_2_3_01_01_wf

class Facts : Prop extends Facts₀ where

variable [Facts]
-- ==== Proof.KernelRun.lean ====
/-
  The idealized kernel's run, with the result array named.

  The program is four kernel regions among stretches of host operations. The generated frame module folds the
  buffer contents through these nine segments (`Gen.W0` at launch, … , `Gen.W9` at the return) and proves each
  segment's step; its frame statement keeps, of the final memory, only that the ten argument arrays are as launched.
  Here the same launch theorem of the library is applied to the same segments and the final memory is read at one
  more buffer: the result array ends at `Gen.W9` there. What `Gen.W9` holds at that buffer, as a function of the
  arguments, is read back through the fold in the other modules.
-/
import proofs.«114058_j80539226735262_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault; in every final memory the
    result array holds what the fold leaves there and the argument arrays are as launched. -/
theorem run_result : θ_run defs (onTc (τ := τ) (main (F := F))) ⟨m, fun _ => 0, ρ⟩ (fun r => ∀ c : Dev nD,
      r.2.mem ((c.tc : Thread nD τ).loc main_v16) = W9 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v16 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.RunValue

end
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.LibBiasDot.lean ====
/-
  A matrix product with a bias row added, read at one entry.

  The linear-layer body that many kernels share: an `M × K` by `K × N` product into the zero accumulator, plus a
  bias vector of length `N` viewed as a `1 × N` row and repeated down the `M` rows. At the ideal values its entry at
  row `p`, column `q` is the sum over `k` of the left operand at `(p, k)` times the right operand at `(k, q)`, plus
  the bias at `q`. `lin` names that whole-array function.
-/
import Idealize.ShloMosaic.Lib.ValueIdx
import Idealize.ShloMosaic.Lib.Pipeline.Value
import Idealize.ShloMosaic.PureOps.Ideal.Laws
import proofs.«114058_j80539226735262_2_alg».proof.Proof.LibPlainDot

noncomputable section

open scoped BigOperators

namespace Cert.Lib.BiasDot

open Idealize.ShloMosaic Idealize.ShloMosaic.ValueIdx

variable {M K N : Nat}

/-- The linear layer as one function of its three arrays: entry `(p, q)` is `∑ k, A (p, k) · W (k, q) + b q`. -/
def lin (A : (⟨2, ![M, K]⟩ : Shape).Idx → EReal) (W : (⟨2, ![K, N]⟩ : Shape).Idx → EReal)
    (b : (⟨1, ![N]⟩ : Shape).Idx → EReal) : (⟨2, ![M, N]⟩ : Shape).Idx → EReal :=
  fun i => (∑ k : Fin K, A (ix2 (i 0) k) * W (ix2 k (i 1))) + b (ix1 (i 1))

theorem lin_apply (A : (⟨2, ![M, K]⟩ : Shape).Idx → EReal) (W : (⟨2, ![K, N]⟩ : Shape).Idx → EReal)
    (b : (⟨1, ![N]⟩ : Shape).Idx → EReal) (p : Fin M) (q : Fin N) :
    lin A W b (ix2 p q) = (∑ k : Fin K, A (ix2 p k) * W (ix2 k q)) + b (ix1 q) := rfl

/-- A vector of length `N` viewed as a `1 × N` row and repeated down `M` rows reads, at `(p, q)`, the vector at `q`. -/
theorem rowBroadcast_apply {α : Type} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) := by
  refine (broadcastTo_apply _ hb (ix2 p q) (ix2 (0 : Fin 1) q) (fun a => ?_)).trans ?_
  · match a with
    | ⟨0, _⟩ => exact (if_pos rfl).symm
    | ⟨1, _⟩ =>
      show q.val = if N = 1 then 0 else q.val
      split
      · have := q.isLt; omega
      · rfl
  · refine (shapeCast_addUnit_apply ![N] b hc (ix2 (0 : Fin 1) q)).trans (congrArg b ?_)
    funext a
    match a with
    | ⟨0, _⟩ => rfl

/-- The product into zero plus the repeated bias row, at entry `(p, q)`. -/
theorem biasDot_apply {φ₁ φ₂ : FTy} (prec : Option ContractPrecision)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (FloatOps.matmul (DotDims.plain M K N) prec l r (constant ⟨2, ![M, N]⟩ .f32 0x00000000#32))
        (broadcastTo ⟨2, ![M, N]⟩ (shapeCast ⟨2, ![1, N]⟩ b hc) hb) (ix2 p q)
      = (∑ k : Fin K, l (ix2 p k) * r (ix2 k q)) + b (ix1 q) := by
  rw [addf_apply, Cert.Lib.PlainDot.matmul_zero_apply, rowBroadcast_apply]

end Cert.Lib.BiasDot

end
-- ==== Proof.QueryRegion.lean ====
/-
  The first kernel region, a linear layer: its output array after the run.

  The region walks 64 row blocks of 1024 rows of the 65536 × 1024 input; at each it multiplies the block by the whole
  1024 × 1024 weight array, adds the bias row, and writes the 1024 × 1024 result back as the same row block of the
  output. So the output array ends as ONE function of the three arrays the region finds: entry (r, q) is the sum over k
  of the input at (r, k) times the weight at (k, q), plus the bias at q.
-/
import proofs.«114058_j80539226735262_2_alg».proof.Proof.Gen.KernelIdeal.Frame
import proofs.«114058_j80539226735262_2_alg».proof.Proof.LibBiasDot

set_option maxRecDepth 16384

noncomputable section

open scoped BigOperators

namespace Cert.KernelIdeal.QueryRegion

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Cert.Lib.BiasDot

/-- The body's stored value at row `p`, column `q` of the block: the product's entry plus the bias at `q` (a change
    of float format is the identity on the extended reals, and a cast to the same shape moves nothing). -/
theorem pay_apply (x : FVec Ideal S1024x1024 .f32) (w : FVec Ideal S1024x1024 .bf16) (b : FVec Ideal S1024 .f32) (p : Fin 1024) (q : Fin 1024) :
    k0_pay1 (F := Ideal) x w b (ix2 p q) = (∑ k : Fin 1024, x (ix2 p k) * w (ix2 k q)) + b (ix1 q) := by
  unfold k0_pay1
  show addf (FloatOps.matmul (DotDims.plain 1024 1024 1024) none (shapeCast S1024x1024 x _) (shapeCast S1024x1024 w _) (constant S1024x1024 .f32 0x00000000#32))
      (broadcastTo S1024x1024 (shapeCast S1x1024 b _) _) (ix2 p q) = _
  rw [shapeCast_self, shapeCast_self]
  exact biasDot_apply none x w b _ _ p q

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the left operand's and the output's row blocks are the point's number; every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The three arrays as the region finds them, as arrays of extended reals. -/
abbrev inX (c : Dev nD) : S65536x1024.Idx → EReal := V c main_v0
abbrev inW (c : Dev nD) : S1024x1024.Idx → EReal := V c main_v2
abbrev inB (c : Dev nD) : S1024.Idx → EReal := V c main_arg3

/-- What point `t` writes back is block `t` of the linear layer of the three arrays as the region finds them. -/
theorem flushed_eq (c : Dev nD) (t : Fin cfg0.N) :
    (dat0 V c).flushed 3 t = ((cfg0.win 3).blk t).view.read (Elt Ideal)
      (lin (M := 65536) (K := 1024) (N := 1024) (inX V c) (inW V c) (inB V c)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1024x1024) hz2, View.ld_unit_zero (S := S1024) hz1]
  obtain ⟨e0, e1, e2, e3, e4, e5, e6⟩ := idx_facts t
  funext j
  obtain ⟨p, q, rfl⟩ : ∃ (p : Fin 1024) (q : Fin 1024), j = ix2 p q := ⟨j 0, j 1, eq_ix2 j⟩
  refine (pay_apply (iblk0 V c 0 t) (iblk0 V c 1 t) (iblk0 V c 2 t) p q).trans ?_
  have hb : ((cfg0.win 2).blk t).view.emb (ix1 q) = ix1 ((((cfg0.win 3).blk t).view.emb (ix2 p q)) 1) := by
    funext a; apply Fin.ext
    match a with
    | ⟨0, _⟩ => show win0_2.index t (0 : Fin 1) * 1024 + 1 * q.val = win0_3.index t (1 : Fin 2) * 1024 + 1 * q.val; omega
  have hx : ∀ k : Fin 1024, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * k.val = k.val; omega
  have hw : ∀ k : Fin 1024, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 1024 + 1 * k.val = k.val; omega
    | ⟨1, _⟩ => show win0_1.index t (1 : Fin 2) * 1024 + 1 * q.val = win0_3.index t (1 : Fin 2) * 1024 + 1 * q.val; omega
  show (∑ k : Fin 1024, inX V c (((cfg0.win 0).blk t).view.emb (ix2 p k)) * inW V c (((cfg0.win 1).blk t).view.emb (ix2 k q)))
      + inB V c (((cfg0.win 2).blk t).view.emb (ix1 q))
    = (∑ k : Fin 1024, inX V c (ix2 ((((cfg0.win 3).blk t).view.emb (ix2 p q)) 0) k) * inW V c (ix2 k ((((cfg0.win 3).blk t).view.emb (ix2 p q)) 1)))
      + inB V c (ix1 ((((cfg0.win 3).blk t).view.emb (ix2 p q)) 1))
  rw [hb]
  exact congrArg (· + _) (Finset.sum_congr rfl fun k _ => by rw [hx k, hw k]; rfl)

/-- An index of the output array is in point `t`'s block iff each coordinate is in the block's range on its axis. -/
theorem mem_blk (t : Fin cfg0.N) (i : S65536x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v3).slice (win0_3.rect t)).set ↔ _
  rw [View.set_slice_whole, Rect.mem_set_unit]
  exact Iff.rfl

/-- Every index of the output array is in the block of the point numbered by its row block. -/
theorem cover (i : S65536x1024.Idx) : ∃ t : Fin cfg0.N, (cfg0.win 3).flush t = true ∧ i ∈ ((cfg0.win 3).blk t).view.set := by
  have hi0 : (i 0).val < 65536 := (i 0).isLt
  have hi1 : (i 1).val < 1024 := (i 1).isLt
  have hN : cfg0.N = 64 := N_0
  let t : Fin cfg0.N := ⟨(i 0).val / 1024, by rw [hN]; omega⟩
  obtain ⟨e0, e1, e2, e3, e4, e5, e6⟩ := idx_facts t
  have ht : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the region: the linear layer of the three arrays as the region finds them. -/
theorem final (c : Dev nD) : (dat0 V c).arrAt 3 cfg0.N
    = lin (M := 65536) (K := 1024) (N := 1024) (inX V c) (inW V c) (inB V c) :=
  (dat0 V c).arrAt_eq_of_cover 3 _ (fun t _ => flushed_eq V c t) (cover)

end Cert.KernelIdeal.QueryRegion

end
-- ==== Proof.ValueRegion.lean ====
/-
  The second kernel region, the linear layer of the context rows: its output array after the run.

  The region has one grid point, whose blocks are the whole arrays: it multiplies the 1232 × 768 input (16 batches of 77
  context rows, flattened) by the whole 768 × 1024 weight array, adds the bias row, and writes the 1232 × 1024 result back
  as the output array. So the output array ends as ONE function of the three arrays the region finds: entry (r, q) is the
  sum over k of the input at (r, k) times the weight at (k, q), plus the bias at q.
-/
import proofs.«114058_j80539226735262_2_alg».proof.Proof.Gen.KernelIdeal.Frame
import proofs.«114058_j80539226735262_2_alg».proof.Proof.LibBiasDot

set_option maxRecDepth 16384

noncomputable section

open scoped BigOperators

namespace Cert.KernelIdeal.ValueRegion

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Cert.Lib.BiasDot

/-- The body's stored value at row `p`, column `q` of the block: the product's entry plus the bias at `q` (a change
    of float format is the identity on the extended reals, and a cast to the same shape moves nothing). -/
theorem pay_apply (x : FVec Ideal S1232x768 .f32) (w : FVec Ideal S768x1024 .bf16) (b : FVec Ideal S1024 .f32) (p : Fin 1232) (q : Fin 1024) :
    k1_pay1 (F := Ideal) x w b (ix2 p q) = (∑ k : Fin 768, x (ix2 p k) * w (ix2 k q)) + b (ix1 q) := by
  unfold k1_pay1
  show addf (FloatOps.matmul (DotDims.plain 1232 768 1024) none (shapeCast S1232x768 x _) (shapeCast S768x1024 w _) (constant S1232x1024 .f32 0x00000000#32))
      (broadcastTo S1232x1024 (shapeCast S1x1024 b _) _) (ix2 p q) = _
  rw [shapeCast_self, shapeCast_self]
  exact biasDot_apply none x w b _ _ p q

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the left operand's and the output's row blocks are the point's number; every other
    block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The three arrays as the region finds them, as arrays of extended reals. -/
abbrev inX (c : Dev nD) : S1232x768.Idx → EReal := V c main_v4
abbrev inW (c : Dev nD) : S768x1024.Idx → EReal := V c main_v6
abbrev inB (c : Dev nD) : S1024.Idx → EReal := V c main_arg7

/-- What point `t` writes back is block `t` of the linear layer of the three arrays as the region finds them. -/
theorem flushed_eq (c : Dev nD) (t : Fin cfg1.N) :
    (dat1 V c).flushed 3 t = ((cfg1.win 3).blk t).view.read (Elt Ideal)
      (lin (M := 1232) (K := 768) (N := 1024) (inX V c) (inW V c) (inB V c)) := by
  show (cfg1.win 3).cut (grid1.coords t) ((dat1 V c).after 3 t) = _
  rw [after1_3]
  unfold out1_3
  rw [View.canon_unit_zero hz2]
  simp only [View.ld_unit_zero (S := S1232x768) hz2, View.ld_unit_zero (S := S768x1024) hz2, View.ld_unit_zero (S := S1024) hz1]
  obtain ⟨e0, e1, e2, e3, e4, e5, e6⟩ := idx_facts t
  funext j
  obtain ⟨p, q, rfl⟩ : ∃ (p : Fin 1232) (q : Fin 1024), j = ix2 p q := ⟨j 0, j 1, eq_ix2 j⟩
  refine (pay_apply (iblk1 V c 0 t) (iblk1 V c 1 t) (iblk1 V c 2 t) p q).trans ?_
  have hb : ((cfg1.win 2).blk t).view.emb (ix1 q) = ix1 ((((cfg1.win 3).blk t).view.emb (ix2 p q)) 1) := by
    funext a; apply Fin.ext
    match a with
    | ⟨0, _⟩ => show win1_2.index t (0 : Fin 1) * 1024 + 1 * q.val = win1_3.index t (1 : Fin 2) * 1024 + 1 * q.val; omega
  have hx : ∀ k : Fin 768, ((cfg1.win 0).blk t).view.emb (ix2 p k) = ix2 ((((cfg1.win 3).blk t).view.emb (ix2 p q)) 0) k := fun k => by
    funext a; apply Fin.ext
    match a with
    | ⟨0, _⟩ => show win1_0.index t (0 : Fin 2) * 1232 + 1 * p.val = win1_3.index t (0 : Fin 2) * 1232 + 1 * p.val; omega
    | ⟨1, _⟩ => show win1_0.index t (1 : Fin 2) * 768 + 1 * k.val = k.val; omega
  have hw : ∀ k : Fin 768, ((cfg1.win 1).blk t).view.emb (ix2 k q) = ix2 k ((((cfg1.win 3).blk t).view.emb (ix2 p q)) 1) := fun k => by
    funext a; apply Fin.ext
    match a with
    | ⟨0, _⟩ => show win1_1.index t (0 : Fin 2) * 768 + 1 * k.val = k.val; omega
    | ⟨1, _⟩ => show win1_1.index t (1 : Fin 2) * 1024 + 1 * q.val = win1_3.index t (1 : Fin 2) * 1024 + 1 * q.val; omega
  show (∑ k : Fin 768, inX V c (((cfg1.win 0).blk t).view.emb (ix2 p k)) * inW V c (((cfg1.win 1).blk t).view.emb (ix2 k q)))
      + inB V c (((cfg1.win 2).blk t).view.emb (ix1 q))
    = (∑ k : Fin 768, inX V c (ix2 ((((cfg1.win 3).blk t).view.emb (ix2 p q)) 0) k) * inW V c (ix2 k ((((cfg1.win 3).blk t).view.emb (ix2 p q)) 1)))
      + inB V c (ix1 ((((cfg1.win 3).blk t).view.emb (ix2 p q)) 1))
  rw [hb]
  exact congrArg (· + _) (Finset.sum_congr rfl fun k _ => by rw [hx k, hw k]; rfl)

/-- An index of the output array is in point `t`'s block iff each coordinate is in the block's range on its axis. -/
theorem mem_blk (t : Fin cfg1.N) (i : S1232x1024.Idx) :
    i ∈ ((cfg1.win 3).blk t).view.set ↔ ∀ a : Fin 2, win1_3.index t a * S1232x1024.size a ≤ (i a).val ∧ (i a).val < win1_3.index t a * S1232x1024.size a + S1232x1024.size a := by
  show i ∈ ((View.whole main_v7).slice (win1_3.rect t)).set ↔ _
  rw [View.set_slice_whole, Rect.mem_set_unit]
  exact Iff.rfl

/-- Every index of the output array is in the block of the point numbered by its row block. -/
theorem cover (i : S1232x1024.Idx) : ∃ t : Fin cfg1.N, (cfg1.win 3).flush t = true ∧ i ∈ ((cfg1.win 3).blk t).view.set := by
  have hi0 : (i 0).val < 1232 := (i 0).isLt
  have hi1 : (i 1).val < 1024 := (i 1).isLt
  have hN : cfg1.N = 1 := N_1
  let t : Fin cfg1.N := ⟨(i 0).val / 1232, by rw [hN]; omega⟩
  obtain ⟨e0, e1, e2, e3, e4, e5, e6⟩ := idx_facts t
  have ht : t.val = (i 0).val / 1232 := rfl
  refine ⟨t, flush1_3 t, ?_⟩
  rw [mem_blk]
  intro a
  match a with
  | ⟨0, _⟩ => show win1_3.index t (0 : Fin 2) * 1232 ≤ (i 0).val ∧ (i 0).val < win1_3.index t (0 : Fin 2) * 1232 + 1232; omega
  | ⟨1, _⟩ => show win1_3.index t (1 : Fin 2) * 1024 ≤ (i 1).val ∧ (i 1).val < win1_3.index t (1 : Fin 2) * 1024 + 1024; omega

/-- The output array after the region: the linear layer of the three arrays as the region finds them. -/
theorem final (c : Dev nD) : (dat1 V c).arrAt 3 cfg1.N
    = lin (M := 1232) (K := 768) (N := 1024) (inX V c) (inW V c) (inB V c) :=
  (dat1 V c).arrAt_eq_of_cover 3 _ (fun t _ => flushed_eq V c t) (cover)

end Cert.KernelIdeal.ValueRegion

end
-- ==== Proof.LibReshape.lean ====
/-
  Row-major reshapes between ranks two, three and four, read at an index.

  A reshape keeps the row-major position of every entry. Merging the two leading axes of an `a × b × c` array
  gives an `(a·b) × c` array whose row `i·b + j` is the old `(i, j)`; splitting goes the other way; and a rank-four
  array re-read at rank three holds, at each index, the entry with the same row-major position.
-/
import Idealize.ShloMosaic.Lib.ValueIdx
import Idealize.ShloMosaic.Lib.Pipeline.Value

noncomputable section

namespace Cert.Lib.Reshape

open Idealize.ShloMosaic Idealize.ShloMosaic.ValueIdx

variable {α : Type}

/-- Merging the two leading axes: row `r = i·b + j`, column `k` of the result is the operand at `(i, j, k)`. -/
theorem merge_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- Splitting the leading axis: entry `(i, j, k)` of the result is the operand at row `r = i·b + j`, column `k`. -/
theorem split_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A rank-four array re-read at rank three: entry `(i, l, e)` of the result is the operand at the index
    `(i', h, p, d)` with the same row-major position. -/
theorem four_three_apply {a0 a1 a2 a3 b0 b1 b2 : ℕ} (x : (⟨4, ![a0, a1, a2, a3]⟩ : Shape).Idx → α)
    (hc : (⟨4, ![a0, a1, a2, a3]⟩ : Shape).ShapeCasts ⟨3, ![b0, b1, b2]⟩)
    (i : Fin b0) (l : Fin b1) (e : Fin b2) (i' : Fin a0) (h : Fin a1) (p : Fin a2) (d : Fin a3)
    (hpos : ((i'.val * a1 + h.val) * a2 + p.val) * a3 + d.val = (i.val * b1 + l.val) * b2 + e.val) :
    shapeCast ⟨3, ![b0, b1, b2]⟩ x hc (ix3 i l e) = x (ix4 i' h p d) :=
  shapeCast_apply x hc _ _ (by
    rw [Shape.rowMajor_val_four, Shape.rowMajor_val_three]
    exact hpos)

end Cert.Lib.Reshape

end
-- ==== Proof.Spec.lean ====
/-
  The function both programs compute, entry by entry, on the extended reals.

  Inputs: a sequence `x` (16 batches of 4096 positions with 1024 features), a context `cr` (16 batches of 77 positions
  with 768 features), and three linear layers whose weights are stored (output feature, input feature).
  * `query` and `value` are linear layers: the entry at output feature `f` is the sum over input features `k` of the
    input at `k` times the weight at `(f, k)`, plus the bias at `f`. (The same `value` rows serve as keys.)
  * Features split into 16 heads of 64 lanes: feature `64·h + d` is lane `d` of head `h` (`feat`).
  * One head, one query row `Q` against the 77 context rows `V`: the score of row `c` is the inner product over the 64
    lanes times one eighth (`scaled`); the weights are the scores' softmax, each score lowered by the row's maximum
    before the exponential (`rowMax`, `weight`); the head's output at lane `d` is the weighted sum of `V` at `d`
    (`attend`).
  * The heads' outputs form, per batch, a block indexed (head, position, lane) of extents 16 × 4096 × 64, which is then
    READ ROW-MAJOR as 4096 rows of 1024 columns: row `l`, column `e` is the entry at linear position `1024·l + e`,
    that is head `(1024·l + e) / 262144`, position `(1024·l + e) mod 262144 / 64`, lane `(1024·l + e) mod 64`.
  * `out` is the third linear layer applied to those rows.
-/
import Idealize.ShloMosaic.Lib.ValueIdx
import Idealize.ShloMosaic.PureOps.Ideal.Laws

noncomputable section

open scoped BigOperators

namespace Cert.Spec

open Idealize.ShloMosaic Idealize.ShloMosaic.ValueIdx

abbrev Arr3 (a b c : Nat) : Type := FVec Ideal ⟨3, ![a, b, c]⟩ .f32
abbrev Arr2 (a b : Nat) : Type := FVec Ideal ⟨2, ![a, b]⟩ .f32
abbrev Arr1 (a : Nat) : Type := FVec Ideal ⟨1, ![a]⟩ .f32

/-- Lane `d` of head `h` is feature `64·h + d`. -/
def feat (h : Fin 16) (d : Fin 64) : Fin 1024 := ⟨h.val * 64 + d.val, by omega⟩

/-- The query layer at batch `b`, position `l`, feature `f`. -/
def query (x : Arr3 16 4096 1024) (wq : Arr2 1024 1024) (bq : Arr1 1024) (b : Fin 16) (l : Fin 4096) (f : Fin 1024) : EReal :=
  (∑ k : Fin 1024, x (ix3 b l k) * wq (ix2 f k)) + bq (ix1 f)

/-- The value layer at batch `b`, context position `c`, feature `f`. -/
def value (cr : Arr3 16 77 768) (wv : Arr2 1024 768) (bv : Arr1 1024) (b : Fin 16) (c : Fin 77) (f : Fin 1024) : EReal :=
  (∑ k : Fin 768, cr (ix3 b c k) * wv (ix2 f k)) + bv (ix1 f)

/-- The score of context row `c`: the inner product over the lanes, times one eighth (the word of 0.125). -/
def scaled (Q : Fin 64 → EReal) (V : Fin 77 → Fin 64 → EReal) (c : Fin 77) : EReal :=
  (∑ d : Fin 64, Q d * V c d) * Ideal.ofBits .f32 0x3E000000#32

/-- The largest of 77 scores, taken from the word of minus infinity. -/
def rowMax (s : Fin 77 → EReal) : EReal :=
  (Finset.univ : Finset (Fin 77)).fold max (Ideal.ofBits .f32 0xFF800000#32) s

/-- The softmax weight of row `c`. -/
def weight (s : Fin 77 → EReal) (c : Fin 77) : EReal :=
  Ideal.div (Ideal.exp (s c - rowMax s)) (∑ c' : Fin 77, Ideal.exp (s c' - rowMax s))

/-- One head's output at lane `d` for the query row `Q` against the context rows `V`. -/
def attend (Q : Fin 64 → EReal) (V : Fin 77 → Fin 64 → EReal) (d : Fin 64) : EReal :=
  ∑ c : Fin 77, weight (scaled Q V) c * V c d

/-- The heads' outputs: batch `b`, head `h`, position `l`, lane `d`. -/
def heads (x : Arr3 16 4096 1024) (cr : Arr3 16 77 768) (wq : Arr2 1024 1024) (bq : Arr1 1024) (wv : Arr2 1024 768) (bv : Arr1 1024)
    (b : Fin 16) (h : Fin 16) (l : Fin 4096) (d : Fin 64) : EReal :=
  attend (fun d' => query x wq bq b l (feat h d')) (fun c d' => value cr wv bv b c (feat h d')) d

/-- The head, position and lane found at row `l`, column `e` of the row-major re-reading. -/
def flatHead (l : Fin 4096) (e : Fin 1024) : Fin 16 := ⟨(l.val * 1024 + e.val) / 262144, by omega⟩
def flatPos (l : Fin 4096) (e : Fin 1024) : Fin 4096 := ⟨(l.val * 1024 + e.val) % 262144 / 64, by omega⟩
def flatLane (l : Fin 4096) (e : Fin 1024) : Fin 64 := ⟨(l.val * 1024 + e.val) % 64, Nat.mod_lt _ (by decide)⟩

/-- The re-read rows: batch `b`, row `l`, column `e`. -/
def rows (x : Arr3 16 4096 1024) (cr : Arr3 16 77 768) (wq : Arr2 1024 1024) (bq : Arr1 1024) (wv : Arr2 1024 768) (bv : Arr1 1024)
    (b : Fin 16) (l : Fin 4096) (e : Fin 1024) : EReal :=
  heads x cr wq bq wv bv b (flatHead l e) (flatPos l e) (flatLane l e)

/-- The result at batch `b`, row `l`, output feature `f`. -/
def outAt (x : Arr3 16 4096 1024) (cr : Arr3 16 77 768) (wq : Arr2 1024 1024) (bq : Arr1 1024) (wv : Arr2 1024 768) (bv : Arr1 1024)
    (wo : Arr2 1024 1024) (bo : Arr1 1024) (b : Fin 16) (l : Fin 4096) (f : Fin 1024) : EReal :=
  (∑ e : Fin 1024, rows x cr wq bq wv bv b l e * wo (ix2 f e)) + bo (ix1 f)

/-- The whole result array. -/
def out (x : Arr3 16 4096 1024) (cr : Arr3 16 77 768) (wq : Arr2 1024 1024) (bq : Arr1 1024) (wv : Arr2 1024 768) (bv : Arr1 1024)
    (wo : Arr2 1024 1024) (bo : Arr1 1024) : Arr3 16 4096 1024 :=
  fun i => outAt x cr wq bq wv bv wo bo (i 0) (i 1) (i 2)

end Cert.Spec

end
-- ==== Proof.FoldA.lean ====
/-
  The buffers from the launch to the attention region's entry, as functions of the argument arrays.

  Before each kernel region a stretch of host operations prepares its operands: the sequence and the context are
  flattened to rows (batch `b`, position `l` becomes row `4096·b + l`, resp. `77·b + c`), and each weight array, stored
  (output feature, input feature), is transposed and narrowed (the narrowing is the identity on the extended reals).
  The first two regions are linear layers, so after them the query rows hold `Spec.query` and the context rows hold
  `Spec.value`; two reshapes split the rows back into (batch, position) for the attention region. No operation or
  region before a buffer's first use writes an argument array, so each is read as launched.
-/
import proofs.«114058_j80539226735262_2_alg».proof.Proof.Gen.KernelIdeal.Frame
import proofs.«114058_j80539226735262_2_alg».proof.Proof.QueryRegion
import proofs.«114058_j80539226735262_2_alg».proof.Proof.ValueRegion
import proofs.«114058_j80539226735262_2_alg».proof.Proof.LibReshape
import proofs.«114058_j80539226735262_2_alg».proof.Proof.Spec
import Idealize.ShloMosaic.Lib.StableHlo.Run
import Idealize.ShloMosaic.Lib.ValueLayout

set_option maxRecDepth 16384

noncomputable section

open scoped BigOperators

namespace Cert.KernelIdeal.Fold

open Cert.KernelIdeal Cert.KernelIdeal.Gen
open Idealize.ShloMosaic Idealize.ShloMosaic.TcCoe Idealize.ShloMosaic.ValueIdx Idealize.SL.Sem
open Idealize.ShloMosaic.StableHlo
open Cert.Lib.BiasDot Cert.Lib.Reshape

variable (m : (ℓ : Loc nD τ sig) → Buf (Elt Ideal) ℓ) (ρ : Dev nD → PrngReg)

/-- A buffer that no operation of a stretch writes holds after the stretch what it held before. -/
macro "stretch_keeps" : tactic => `(tactic| (
  refine StableHlo.after_of_forall_not_mem _ _ (List.forall_iff_forall_mem.mp ?_)
  simp only [hostOps0, hostOps1, hostOps2, hostOps3, hostOps4, List.Forall, StableHlo.unary_writes, StableHlo.reshape_writes,
    Finset.mem_singleton]
  repeat' apply And.intro
  all_goals exact StableHlo.devRef_ne_of_ne (by decide)))

/-! ## The argument arrays at launch, as arrays of extended reals -/

abbrev A0 (c : Dev nD) : S16x4096x1024.Idx → EReal := m ((c : Thread nD τ).loc main_arg0)
abbrev A1 (c : Dev nD) : S16x77x768.Idx → EReal := m ((c : Thread nD τ).loc main_arg1)
abbrev A2 (c : Dev nD) : S1024x1024.Idx → EReal := m ((c : Thread nD τ).loc main_arg2)
abbrev A3 (c : Dev nD) : S1024.Idx → EReal := m ((c : Thread nD τ).loc main_arg3)
abbrev A6 (c : Dev nD) : S1024x768.Idx → EReal := m ((c : Thread nD τ).loc main_arg6)
abbrev A7 (c : Dev nD) : S1024.Idx → EReal := m ((c : Thread nD τ).loc main_arg7)
abbrev A8 (c : Dev nD) : S1024x1024.Idx → EReal := m ((c : Thread nD τ).loc main_arg8)
abbrev A9 (c : Dev nD) : S1024.Idx → EReal := m ((c : Thread nD τ).loc main_arg9)

/-! ## The query layer (region 0) -/

/-- The flattened sequence. -/
theorem x0_eq (c : Dev nD) : QueryRegion.inX (V1 m ρ) c = shapeCast S65536x1024 (A0 m c) shapeCasts_S16x4096x1024_S65536x1024 := by
  show StableHlo.after hostOps0 (W0 m ρ c) (Proc.devRef .tc main_v0) = _
  after_results
  rfl

/-- The transposed query weights. -/
theorem wq_eq (c : Dev nD) : QueryRegion.inW (V1 m ρ) c
    = (truncf .bf16 (transpose S1024x1024 [1, 0] (A2 m c) transposes_S1024x1024_S1024x1024_1_0 : FVec Ideal S1024x1024 .f32) bitsLt_bf16_f32 : FVec Ideal S1024x1024 .bf16) := by
  show StableHlo.after hostOps0 (W0 m ρ c) (Proc.devRef .tc main_v2) = _
  after_results

/-- The query bias. -/
theorem bq_eq (c : Dev nD) : QueryRegion.inB (V1 m ρ) c = A3 m c := by
  show StableHlo.after hostOps0 (W0 m ρ c) (Proc.devRef .tc main_arg3) = W0 m ρ c (Proc.devRef .tc main_arg3)
  stretch_keeps

/-- The query rows after region 0: row `4096·b + l`, feature `f` holds `Spec.query` at `(b, l, f)`. -/
theorem q_apply (c : Dev nD) (b : Fin 16) (l : Fin 4096) (f : Fin 1024) (r : Fin 65536) (hr : r.val = b.val * 4096 + l.val) :
    (W2 m ρ c (Proc.devRef .tc main_v3) : S65536x1024.Idx → EReal) (ix2 r f)
      = Spec.query (A0 m c) (A2 m c) (A3 m c) b l f := by
  have h := (W2_arr m ρ c 3).trans (QueryRegion.final (V1 m ρ) c)
  rw [show (W2 m ρ c (Proc.devRef .tc main_v3) : S65536x1024.Idx → EReal) = _ from h, lin_apply, x0_eq, wq_eq, bq_eq]
  unfold Spec.query
  refine congrArg (· + _) (Finset.sum_congr rfl fun k _ => ?_)
  rw [merge_apply (A0 m c) _ b l k r hr, truncf_apply, transpose_ix2_apply]

/-! ## The value layer (region 1) -/

/-- The flattened context. -/
theorem x1_eq (c : Dev nD) : ValueRegion.inX (V3 m ρ) c = shapeCast S1232x768 (A1 m c) shapeCasts_S16x77x768_S1232x768 := by
  show StableHlo.after hostOps1 (W2 m ρ c) (Proc.devRef .tc main_v4) = _
  after_results
  rw [W2_of_ne m ρ c main_arg1 (by decide)]
  rw [show W1 m ρ c (Proc.devRef .tc main_arg1) = W0 m ρ c (Proc.devRef .tc main_arg1) by stretch_keeps]
  rfl

/-- The transposed value weights. -/
theorem wv_eq (c : Dev nD) : ValueRegion.inW (V3 m ρ) c
    = (truncf .bf16 (transpose S768x1024 [1, 0] (A6 m c) transposes_S1024x768_S768x1024_1_0 : FVec Ideal S768x1024 .f32) bitsLt_bf16_f32 : FVec Ideal S768x1024 .bf16) := by
  show StableHlo.after hostOps1 (W2 m ρ c) (Proc.devRef .tc main_v6) = _
  after_results
  rw [W2_of_ne m ρ c main_arg6 (by decide)]
  rw [show W1 m ρ c (Proc.devRef .tc main_arg6) = W0 m ρ c (Proc.devRef .tc main_arg6) by stretch_keeps]

/-- The value bias. -/
theorem bv_eq (c : Dev nD) : ValueRegion.inB (V3 m ρ) c = A7 m c := by
  show StableHlo.after hostOps1 (W2 m ρ c) (Proc.devRef .tc main_arg7) = W0 m ρ c (Proc.devRef .tc main_arg7)
  rw [show StableHlo.after hostOps1 (W2 m ρ c) (Proc.devRef .tc main_arg7) = W2 m ρ c (Proc.devRef .tc main_arg7) by stretch_keeps,
    W2_of_ne m ρ c main_arg7 (by decide)]
  stretch_keeps

/-- The context rows after region 1: row `77·b + cc`, feature `f` holds `Spec.value` at `(b, cc, f)`. -/
theorem v_apply (c : Dev nD) (b : Fin 16) (cc : Fin 77) (f : Fin 1024) (r : Fin 1232) (hr : r.val = b.val * 77 + cc.val) :
    (W4 m ρ c (Proc.devRef .tc main_v7) : S1232x1024.Idx → EReal) (ix2 r f)
      = Spec.value (A1 m c) (A6 m c) (A7 m c) b cc f := by
  have h := (W4_arr m ρ c 3).trans (ValueRegion.final (V3 m ρ) c)
  rw [show (W4 m ρ c (Proc.devRef .tc main_v7) : S1232x1024.Idx → EReal) = _ from h, lin_apply, x1_eq, wv_eq, bv_eq]
  unfold Spec.value
  refine congrArg (· + _) (Finset.sum_congr rfl fun k _ => ?_)
  rw [merge_apply (A1 m c) _ b cc k r hr, truncf_apply, transpose_ix2_apply]

/-- Region 1 and the stretch before it leave the query rows alone. -/
theorem q_kept (c : Dev nD) : W4 m ρ c (Proc.devRef .tc main_v3) = W2 m ρ c (Proc.devRef .tc main_v3) := by
  rw [W4_of_ne m ρ c main_v3 (by decide)]
  stretch_keeps

/-! ## The attention region's two arrays (region 2's entry) -/

/-- The queries as the attention region finds them: `Spec.query` at (batch, position, feature). -/
theorem q3_apply (c : Dev nD) (b : Fin 16) (l : Fin 4096) (f : Fin 1024) :
    (V5 m ρ c main_v8 : S16x4096x1024.Idx → EReal) (ix3 b l f) = Spec.query (A0 m c) (A2 m c) (A3 m c) b l f := by
  have h : (V5 m ρ c main_v8 : S16x4096x1024.Idx → EReal)
      = shapeCast S16x4096x1024 (W2 m ρ c (Proc.devRef .tc main_v3) : S65536x1024.Idx → EReal) shapeCasts_S65536x1024_S16x4096x1024 := by
    show StableHlo.after hostOps2 (W4 m ρ c) (Proc.devRef .tc main_v8) = _
    after_results
    rw [q_kept]
    rfl
  rw [h, split_apply _ _ b l f ⟨b.val * 4096 + l.val, by omega⟩ rfl]
  exact q_apply m ρ c b l f _ rfl

/-- The context rows as the attention region finds them: `Spec.value` at (batch, context position, feature). -/
theorem v3_apply (c : Dev nD) (b : Fin 16) (cc : Fin 77) (f : Fin 1024) :
    (V5 m ρ c main_v9 : S16x77x1024.Idx → EReal) (ix3 b cc f) = Spec.value (A1 m c) (A6 m c) (A7 m c) b cc f := by
  have h : (V5 m ρ c main_v9 : S16x77x1024.Idx → EReal)
      = shapeCast S16x77x1024 (W4 m ρ c (Proc.devRef .tc main_v7) : S1232x1024.Idx → EReal) shapeCasts_S1232x1024_S16x77x1024 := by
    show StableHlo.after hostOps2 (W4 m ρ c) (Proc.devRef .tc main_v9) = _
    after_results
    rfl
  rw [h, split_apply _ _ b cc f ⟨b.val * 77 + cc.val, by omega⟩ rfl]
  exact v_apply m ρ c b cc f _ rfl

end Cert.KernelIdeal.Fold

end
-- ==== Proof.HeadValue.lean ====
/-
  One head of the attention block, read at an index.

  For each of the sixteen heads the block's body takes the head's 512 query rows `q` (64 lanes each) and its 77
  context rows `v`, and stores: the scores `q · vᵀ` times one eighth, each row lowered by its maximum, the
  exponential, each row divided by its sum, and the product of those weights with `v`. Read at row `l`, lane `d`
  this is the softmax-weighted sum of the context rows at lane `d` — the function `attend` of the specification —
  and the sixteen stored terms are one and the same function of `(q, v)`.
-/
import proofs.«114058_j80539226735262_2_alg».proof.Proof.Gen.KernelIdeal.Skeleton
import proofs.«114058_j80539226735262_2_alg».proof.Proof.Spec
import proofs.«114058_j80539226735262_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.HeadValue

open Cert.KernelIdeal Cert.KernelIdeal.Gen Idealize.ShloMosaic Idealize.ShloMosaic.ValueIdx

/-! ## Readings of a column and of a row reduction -/

section Layout

variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

/-- Reducing a matrix along its rows: the source index over row `l` with coordinate `c` inserted is `(l, c)`. -/
theorem lift_row {a b : ℕ} (h : (⟨2, ![a, b]⟩ : Shape).Reduces [1] ⟨1, ![a]⟩) (l : Fin a) (c : Fin b) :
    h.lift (ix1 l) c = ix2 l c := by
  funext ax
  apply Fin.ext
  match ax with
  | ⟨0, _⟩ => rfl
  | ⟨1, _⟩ => rfl

end Layout

/-! ## The pieces of one head -/

/-- The body's two dimension-number records are the plain matrix products. -/
theorem dotScores_eq : dot_S512x64_S64x77_S512x77_1_0_0_1_n_n = DotDims.plain 512 64 77 := rfl
theorem dotOut_eq : dot_S512x77_S77x64_S512x64_1_0_0_1_n_n = DotDims.plain 512 77 64 := rfl

/-- Each row's maximum (taken from minus infinity), repeated along the row. -/
def rowMaxB (s : FVec Ideal S512x77 .f32) : FVec Ideal S512x77 .f32 :=
  broadcastTo S512x77
    (shapeCast S512x1 (multiReduction (F := Ideal) .maximumf [1] S512 s 0xFF800000#32 reduces_S512x77_S512 (.inl rfl) rfl)
      shapeCasts_S512_S512x1)
    broadcasts_S512x1_S512x77

/-- Each row's sum, repeated along the row. -/
def rowSumB (e : FVec Ideal S512x77 .f32) : FVec Ideal S512x77 .f32 :=
  broadcastTo S512x77
    (shapeCast S512x1 (multiReduction (F := Ideal) .add [1] S512 e 0x00000000#32 reduces_S512x77_S512 (.inl rfl) rfl)
      shapeCasts_S512_S512x1)
    broadcasts_S512x1_S512x77

theorem rowMaxB_apply (s : FVec Ideal S512x77 .f32) (l : Fin 512) (c : Fin 77) :
    rowMaxB s (ix2 l c) = Cert.Spec.rowMax (fun c' => s (ix2 l c')) := by
  unfold rowMaxB
  refine (broadcastTo_a1_ab_apply _ _ l c).trans ?_
  refine (shapeCast_a_a1_apply _ _ l 0).trans ?_
  refine (Ideal.multiReduction_maximumf_single s 0xFF800000#32 reduces_S512x77_S512 (.inl rfl) rfl (ix1 l)).trans ?_
  have hf : (s ∘ reduces_S512x77_S512.lift (ix1 l)) = fun c' : Fin 77 => s (ix2 l c') :=
    funext fun c' => congrArg s (lift_row reduces_S512x77_S512 l c')
  rw [hf]
  rfl

theorem rowSumB_apply (e : FVec Ideal S512x77 .f32) (l : Fin 512) (c : Fin 77) :
    rowSumB e (ix2 l c) = ∑ c' : Fin 77, e (ix2 l c') := by
  unfold rowSumB
  refine (broadcastTo_a1_ab_apply _ _ l c).trans ?_
  refine (shapeCast_a_a1_apply _ _ l 0).trans ?_
  refine (Ideal.multiReduction_add_single e 0x00000000#32 reduces_S512x77_S512 (.inl rfl) rfl (ix1 l)).trans ?_
  exact Finset.sum_congr rfl fun c' _ => congrArg e (lift_row reduces_S512x77_S512 l c')

/-- The exponentials of the scores lowered by their row's maximum. -/
def expo (s : FVec Ideal S512x77 .f32) : FVec Ideal S512x77 .f32 := exp (subf s (rowMaxB s))

theorem expo_apply (s : FVec Ideal S512x77 .f32) (l : Fin 512) (c : Fin 77) :
    expo s (ix2 l c) = Ideal.exp (s (ix2 l c) - Cert.Spec.rowMax (fun c' => s (ix2 l c'))) := by
  show Ideal.exp (s (ix2 l c) - rowMaxB s (ix2 l c)) = _
  rw [rowMaxB_apply]

/-- The softmax weights of the scores `s`, in the narrower format (the same values at the ideal reading). -/
def weights (s : FVec Ideal S512x77 .f32) : FVec Ideal S512x77 .bf16 :=
  truncf .bf16 (divf (expo s) (rowSumB (expo s))) bitsLt_bf16_f32

theorem weights_apply (s : FVec Ideal S512x77 .f32) (l : Fin 512) (c : Fin 77) :
    weights s (ix2 l c) = Cert.Spec.weight (fun c' => s (ix2 l c')) c := by
  show Ideal.div (expo s (ix2 l c)) (rowSumB (expo s) (ix2 l c)) = _
  rw [rowSumB_apply, expo_apply]
  unfold Cert.Spec.weight
  exact congrArg (Ideal.div _) (Finset.sum_congr rfl fun c' _ => expo_apply s l c')

/-- The scores of one head: the query rows against the transposed context rows, times one eighth. -/
def scores (q : FVec Ideal S1x512x64 .bf16) (v : FVec Ideal S1x77x64 .bf16) : FVec Ideal S512x77 .f32 :=
  mulf
    (matmul dot_S512x64_S64x77_S512x77_1_0_0_1_n_n none (shapeCast S512x64 q shapeCasts_S1x512x64_S512x64)
      (transpose S64x77 [1, 0] (shapeCast S77x64 v shapeCasts_S1x77x64_S77x64) transposes_S77x64_p1_0_S64x77)
      (constant (F := Ideal) S512x77 .f32 0x00000000#32))
    (broadcast S512x77 (Scalar.ofBits (F := Ideal) .f32 0x3E000000#32))

theorem scores_apply (q : FVec Ideal S1x512x64 .bf16) (v : FVec Ideal S1x77x64 .bf16) (l : Fin 512) (c : Fin 77) :
    scores q v (ix2 l c)
      = Cert.Spec.scaled (fun d' => q (ix3 (0 : Fin 1) l d')) (fun c' d' => v (ix3 (0 : Fin 1) c' d')) c := by
  unfold scores Cert.Spec.scaled
  rw [mulf_apply, broadcast_apply]
  refine congrArg₂ (· * ·) ?_ rfl
  refine (Cert.Lib.PlainDot.matmul_zero_apply (M := 512) (K := 64) (N := 77) none _ _ l c).trans ?_
  refine Finset.sum_congr rfl fun d' _ => ?_
  rw [shapeCast_1ab_ab_apply, transpose_ix2_apply, shapeCast_1ab_ab_apply]

/-- The stored term of one head, written over the pieces above. -/
theorem pay2_eq (q : FVec Ideal S1x512x64 .bf16) (v : FVec Ideal S1x77x64 .bf16) :
    k2_pay2 (F := Ideal) q v
      = shapeCast S1x1x512x64
          (truncf .bf16
            (matmul dot_S512x77_S77x64_S512x64_1_0_0_1_n_n none (weights (scores q v))
              (shapeCast S77x64 v shapeCasts_S1x77x64_S77x64) (constant (F := Ideal) S512x64 .f32 0x00000000#32))
            bitsLt_bf16_f32)
          shapeCasts_S512x64_S1x1x512x64 := rfl

/-- One head's stored value at row `l`, lane `d`: the softmax-weighted sum of the context rows at lane `d`. -/
theorem head_apply (q : Vec Ideal S1x512x64 .bf16) (v : Vec Ideal S1x77x64 .bf16) (l : Fin 512) (d : Fin 64) :
    k2_pay2 (F := Ideal) q v (ix4 0 0 l d)
      = Cert.Spec.attend (fun d' => q (ix3 0 l d')) (fun c d' => v (ix3 0 c d')) d := by
  rw [pay2_eq]
  refine (shapeCast_ab_11ab_apply _ _ 0 0 l d).trans ?_
  rw [truncf_apply]
  refine (Cert.Lib.PlainDot.matmul_zero_apply (M := 512) (K := 77) (N := 64) none _ _ l d).trans ?_
  unfold Cert.Spec.attend
  refine Finset.sum_congr rfl fun c _ => ?_
  rw [weights_apply, shapeCast_1ab_ab_apply]
  refine congrArg₂ (· * ·) (congrArg (fun s => Cert.Spec.weight s c) (funext fun c' => scores_apply q v l c')) rfl

/-! ## The sixteen stored terms are one function -/

section Same

variable {F : FTy → Type} [FloatOps F]

theorem pay7_eq (q : Vec F S1x512x64 .bf16) (v : Vec F S1x77x64 .bf16) : k2_pay7 q v = k2_pay2 q v := rfl
theorem pay8_eq (q : Vec F S1x512x64 .bf16) (v : Vec F S1x77x64 .bf16) : k2_pay8 q v = k2_pay2 q v := rfl
theorem pay12_eq (q : Vec F S1x512x64 .bf16) (v : Vec F S1x77x64 .bf16) : k2_pay12 q v = k2_pay2 q v := rfl
theorem pay13_eq (q : Vec F S1x512x64 .bf16) (v : Vec F S1x77x64 .bf16) : k2_pay13 q v = k2_pay2 q v := rfl
theorem pay18_eq (q : Vec F S1x512x64 .bf16) (v : Vec F S1x77x64 .bf16) : k2_pay18 q v = k2_pay2 q v := rfl
theorem pay24_eq (q : Vec F S1x512x64 .bf16) (v : Vec F S1x77x64 .bf16) : k2_pay24 q v = k2_pay2 q v := rfl
theorem pay30_eq (q : Vec F S1x512x64 .bf16) (v : Vec F S1x77x64 .bf16) : k2_pay30 q v = k2_pay2 q v := rfl

theorem pay1_eq (q : Vec F S1x512x64 .bf16) (v : Vec F S1x77x64 .bf16) :
    k2_pay1 (k2_pay31 v) (k2_pay32 q v) = k2_pay2 q v := rfl
theorem pay29_eq (q : Vec F S1x512x64 .bf16) (v : Vec F S1x77x64 .bf16) :
    k2_pay29 (k2_pay28 q v) = k2_pay2 q v := rfl
theorem pay27_eq (q : Vec F S1x512x64 .bf16) (v : Vec F S1x77x64 .bf16) :
    k2_pay27 (k2_pay25 q) (k2_pay26 v) = k2_pay2 q v := rfl
theorem pay23_eq (q : Vec F S1x512x64 .bf16) (v : Vec F S1x77x64 .bf16) :
    k2_pay23 (k2_pay21 v) (k2_pay22 q v) = k2_pay2 q v := rfl
theorem pay20_eq (q : Vec F S1x512x64 .bf16) (v : Vec F S1x77x64 .bf16) :
    k2_pay20 (k2_pay19 q) v = k2_pay2 q v := rfl
theorem pay17_eq (q : Vec F S1x512x64 .bf16) (v : Vec F S1x77x64 .bf16) :
    k2_pay17 (k2_pay14 v) (k2_pay15 q v) (k2_pay16 q v) = k2_pay2 q v := rfl
theorem pay11_eq (q : Vec F S1x512x64 .bf16) (v : Vec F S1x77x64 .bf16) :
    k2_pay11 (k2_pay9 v) (k2_pay10 q v) = k2_pay2 q v := rfl
theorem pay6_eq (q : Vec F S1x512x64 .bf16) (v : Vec F S1x77x64 .bf16) :
    k2_pay6 (k2_pay3 v) (k2_pay4 q v) (k2_pay5 q v) = k2_pay2 q v := rfl

end Same

end Cert.HeadValue

end
-- ==== Proof.AttnRegion.lean ====
/-
  The third kernel region, the attention block: its output array after the run.

  The region walks 16 batches × 8 blocks of 512 query positions. At each point it finds the block's 512 query rows of
  1024 features and the batch's 77 context rows of 1024 features; for each of the sixteen heads it takes the head's 64
  lanes of both (feature 64·h + d is lane d of head h), forms the softmax-weighted sum of the context rows, and stores
  it as head h of the output block. So the output array ends as ONE function of the two arrays the region finds: the
  entry at batch b, head h, position p, lane d is the head's attention output for query row (b, p) against the
  context rows of batch b.
-/
import proofs.«114058_j80539226735262_2_alg».proof.Proof.Gen.KernelIdeal.Frame
import proofs.«114058_j80539226735262_2_alg».proof.Proof.HeadValue
import proofs.«114058_j80539226735262_2_alg».proof.Proof.Spec

set_option maxRecDepth 16384

noncomputable section

open scoped BigOperators

namespace Cert.KernelIdeal.AttnRegion

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Cert.HeadValue

/-- The head's output depends only on the values of its query row, its context rows and the lane. -/
theorem attend_congr {Q Q' : Fin 64 → EReal} {W W' : Fin 77 → Fin 64 → EReal} {d d' : Fin 64}
    (hQ : ∀ k, Q k = Q' k) (hW : ∀ c k, W c k = W' c k) (hd : d = d') :
    Cert.Spec.attend Q W d = Cert.Spec.attend Q' W' d' := by
  have e1 : Q = Q' := funext hQ
  have e2 : W = W' := funext fun c => funext (hW c)
  subst e1 e2 hd
  rfl

/-! ## One block -/

/-- The block the body leaves, as a function of the block index (unit batch, head, row, lane): the head's attention
    output for the row's query lanes against the context rows' lanes of that head. -/
def blkFn (x0 : Vec Ideal S1x512x1024 .bf16) (x1 : Vec Ideal S1x77x1024 .bf16) : Vec Ideal S1x16x512x64 .bf16 :=
  fun y => Cert.Spec.attend (fun k => x0 (ix3 0 (y 2) (Cert.Spec.feat (y 1) k)))
    (fun c' k => x1 (ix3 0 c' (Cert.Spec.feat (y 1) k))) (y 3)

/-- One head's store: the stored term of the head's 64 lanes of the query block and of the context block, at a local
    index of the store's rectangle, is the block function at the place the rectangle puts that index. The lanes of
    head h start at 64·h in both inputs, and the store goes to head h of the output block. -/
theorem head_piece (x0 : Vec Ideal S1x512x1024 .bf16) (x1 : Vec Ideal S1x77x1024 .bf16) (h : Fin 16)
    (oq : Fin 3 → Nat) (iq : ∀ a, oq a + S1x512x64.size a ≤ S1x512x1024.size a)
    (ov : Fin 3 → Nat) (iv : ∀ a, ov a + S1x77x64.size a ≤ S1x77x1024.size a)
    (oo : Fin 4 → Nat) (io : ∀ a, oo a + S1x1x512x64.size a ≤ S1x16x512x64.size a)
    (hq : oq = ![0, 0, h.val * 64]) (hv : ov = ![0, 0, h.val * 64]) (ho : oo = ![0, h.val, 0, 0])
    (x : S1x1x512x64.Idx) :
    k2_pay2 (F := Ideal) (View.ld x0 (Rect.unit (s := S1x512x1024) oq S1x512x64.size iq))
        (View.ld x1 (Rect.unit (s := S1x77x1024) ov S1x77x64.size iv)) x
      = blkFn x0 x1 ((Rect.unit (s := S1x16x512x64) oo S1x1x512x64.size io).emb x) := by
  subst hq hv ho
  obtain ⟨u, w, l, d, rfl⟩ : ∃ (u w : Fin 1) (l : Fin 512) (d : Fin 64), x = ix4 u w l d :=
    ⟨x 0, x 1, x 2, x 3, eq_ix4 x⟩
  have hu : u = 0 := Fin.ext (by omega)
  have hw : w = 0 := Fin.ext (by omega)
  subst hu hw
  have hh : h.val < 16 := h.isLt
  refine (head_apply _ _ l d).trans ?_
  unfold blkFn
  refine attend_congr (fun k => ?_) (fun c' k => ?_) ?_
  · refine congrArg x0 ?_
    funext a; apply Fin.ext
    match a with
    | ⟨0, _⟩ => rfl
    | ⟨1, _⟩ => rfl
    | ⟨2, _⟩ => show h.val * 64 + 1 * k.val = (h.val + 1 * 0) * 64 + k.val; omega
  · refine congrArg x1 ?_
    funext a; apply Fin.ext
    match a with
    | ⟨0, _⟩ => rfl
    | ⟨1, _⟩ => show 0 + 1 * c'.val = c'.val; omega
    | ⟨2, _⟩ => show h.val * 64 + 1 * k.val = (h.val + 1 * 0) * 64 + k.val; omega
  · apply Fin.ext
    show d.val = 0 + 1 * d.val
    omega

/-- The block the body leaves is the block function of the two input blocks: each of the sixteen stores is one head's
    term, and the stores cover the block. -/
theorem block_apply (x0 : Vec Ideal S1x512x1024 .bf16) (x1 : Vec Ideal S1x77x1024 .bf16) :
    out2_2 (F := Ideal) x0 x1 = blkFn x0 x1 := by
  funext y
  unfold out2_2
  refine View.canon_apply_of_pieces (blkFn x0 x1) _ ?_ y (cover2_2 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · exact (congrFun (pay1_eq _ _) x).trans (head_piece x0 x1 15 _ Gen.inb_S1x512x1024_S1x512x64_0_0_960 _ Gen.inb_S1x77x1024_S1x77x64_0_0_960 _ Gen.inb_S1x16x512x64_S1x1x512x64_0_15_0_0 rfl rfl rfl x)
  · exact (congrFun (pay30_eq _ _) x).trans (head_piece x0 x1 14 _ Gen.inb_S1x512x1024_S1x512x64_0_0_896 _ Gen.inb_S1x77x1024_S1x77x64_0_0_896 _ Gen.inb_S1x16x512x64_S1x1x512x64_0_14_0_0 rfl rfl rfl x)
  · exact (congrFun (pay29_eq _ _) x).trans (head_piece x0 x1 13 _ Gen.inb_S1x512x1024_S1x512x64_0_0_832 _ Gen.inb_S1x77x1024_S1x77x64_0_0_832 _ Gen.inb_S1x16x512x64_S1x1x512x64_0_13_0_0 rfl rfl rfl x)
  · exact (congrFun (pay27_eq _ _) x).trans (head_piece x0 x1 12 _ Gen.inb_S1x512x1024_S1x512x64_0_0_768 _ Gen.inb_S1x77x1024_S1x77x64_0_0_768 _ Gen.inb_S1x16x512x64_S1x1x512x64_0_12_0_0 rfl rfl rfl x)
  · exact (congrFun (pay24_eq _ _) x).trans (head_piece x0 x1 11 _ Gen.inb_S1x512x1024_S1x512x64_0_0_704 _ Gen.inb_S1x77x1024_S1x77x64_0_0_704 _ Gen.inb_S1x16x512x64_S1x1x512x64_0_11_0_0 rfl rfl rfl x)
  · exact (congrFun (pay23_eq _ _) x).trans (head_piece x0 x1 10 _ Gen.inb_S1x512x1024_S1x512x64_0_0_640 _ Gen.inb_S1x77x1024_S1x77x64_0_0_640 _ Gen.inb_S1x16x512x64_S1x1x512x64_0_10_0_0 rfl rfl rfl x)
  · exact (congrFun (pay20_eq _ _) x).trans (head_piece x0 x1 9 _ Gen.inb_S1x512x1024_S1x512x64_0_0_576 _ Gen.inb_S1x77x1024_S1x77x64_0_0_576 _ Gen.inb_S1x16x512x64_S1x1x512x64_0_9_0_0 rfl rfl rfl x)
  · exact (congrFun (pay18_eq _ _) x).trans (head_piece x0 x1 8 _ Gen.inb_S1x512x1024_S1x512x64_0_0_512 _ Gen.inb_S1x77x1024_S1x77x64_0_0_512 _ Gen.inb_S1x16x512x64_S1x1x512x64_0_8_0_0 rfl rfl rfl x)
  · exact (congrFun (pay17_eq _ _) x).trans (head_piece x0 x1 7 _ Gen.inb_S1x512x1024_S1x512x64_0_0_448 _ Gen.inb_S1x77x1024_S1x77x64_0_0_448 _ Gen.inb_S1x16x512x64_S1x1x512x64_0_7_0_0 rfl rfl rfl x)
  · exact (congrFun (pay13_eq _ _) x).trans (head_piece x0 x1 6 _ Gen.inb_S1x512x1024_S1x512x64_0_0_384 _ Gen.inb_S1x77x1024_S1x77x64_0_0_384 _ Gen.inb_S1x16x512x64_S1x1x512x64_0_6_0_0 rfl rfl rfl x)
  · exact (congrFun (pay12_eq _ _) x).trans (head_piece x0 x1 5 _ Gen.inb_S1x512x1024_S1x512x64_0_0_320 _ Gen.inb_S1x77x1024_S1x77x64_0_0_320 _ Gen.inb_S1x16x512x64_S1x1x512x64_0_5_0_0 rfl rfl rfl x)
  · exact (congrFun (pay11_eq _ _) x).trans (head_piece x0 x1 4 _ Gen.inb_S1x512x1024_S1x512x64_0_0_256 _ Gen.inb_S1x77x1024_S1x77x64_0_0_256 _ Gen.inb_S1x16x512x64_S1x1x512x64_0_4_0_0 rfl rfl rfl x)
  · exact (congrFun (pay8_eq _ _) x).trans (head_piece x0 x1 3 _ Gen.inb_S1x512x1024_S1x512x64_0_0_192 _ Gen.inb_S1x77x1024_S1x77x64_0_0_192 _ Gen.inb_S1x16x512x64_S1x1x512x64_0_3_0_0 rfl rfl rfl x)
  · exact (congrFun (pay7_eq _ _) x).trans (head_piece x0 x1 2 _ Gen.inb_S1x512x1024_S1x512x64_0_0_128 _ Gen.inb_S1x77x1024_S1x77x64_0_0_128 _ Gen.inb_S1x16x512x64_S1x1x512x64_0_2_0_0 rfl rfl rfl x)
  · exact (congrFun (pay6_eq _ _) x).trans (head_piece x0 x1 1 _ Gen.inb_S1x512x1024_S1x512x64_0_0_64 _ Gen.inb_S1x77x1024_S1x77x64_0_0_64 _ Gen.inb_S1x16x512x64_S1x1x512x64_0_1_0_0 rfl rfl rfl x)
  · exact (head_piece x0 x1 0 _ Gen.inb_S1x512x1024_S1x512x64_0_0_0 _ Gen.inb_S1x77x1024_S1x77x64_0_0_0 _ Gen.inb_S1x16x512x64_S1x1x512x64_0_0_0_0 rfl rfl rfl x)

/-! ## From blocks to the array -/

variable (V : (c : Dev nD) → (b : Ref sig .tc) → Buf (Elt Ideal) ((c : Thread nD τ).loc b))

/-- The index maps over the grid: point t is batch t / 8, row block t % 8. The query window's block is (batch, row
    block, 0), the context window's (batch, 0, 0), the output window's (batch, 0, row block, 0). -/
theorem idx_facts : ∀ t : Fin cfg2.N,
    win2_0.index t (0 : Fin 3) = t.val / 8 ∧ win2_0.index t (1 : Fin 3) = t.val % 8 ∧ win2_0.index t (2 : Fin 3) = 0
    ∧ win2_1.index t (0 : Fin 3) = t.val / 8 ∧ win2_1.index t (1 : Fin 3) = 0 ∧ win2_1.index t (2 : Fin 3) = 0
    ∧ win2_2.index t (0 : Fin 4) = t.val / 8 ∧ win2_2.index t (1 : Fin 4) = 0
    ∧ win2_2.index t (2 : Fin 4) = t.val % 8 ∧ win2_2.index t (3 : Fin 4) = 0 :=
  (by decide +kernel : ∀ t : Fin grid2.N, _)

/-- The two arrays as the region finds them, as arrays of extended reals. -/
abbrev inQ (c : Dev nD) : S16x4096x1024.Idx → EReal := V c main_v8
abbrev inV (c : Dev nD) : S16x77x1024.Idx → EReal := V c main_v9

/-- The attention of the query array `Q` against the context array `Vv`, head by head: batch `i 0`, head `i 1`,
    position `i 2`, lane `i 3`. -/
def attnArr (Q : S16x4096x1024.Idx → EReal) (Vv : S16x77x1024.Idx → EReal) : S16x16x4096x64.Idx → EReal :=
  fun i => Cert.Spec.attend (fun d' => Q (ix3 (i 0) (i 2) (Cert.Spec.feat (i 1) d')))
    (fun c d' => Vv (ix3 (i 0) c (Cert.Spec.feat (i 1) d'))) (i 3)

/-- What point `t` writes back is block `t` of the attention of the two arrays as the region finds them. -/
theorem flushed_eq (c : Dev nD) (t : Fin cfg2.N) :
    (dat2 V c).flushed 2 t = ((cfg2.win 2).blk t).view.read (Elt Ideal) (attnArr (inQ V c) (inV V c)) := by
  show (cfg2.win 2).cut (grid2.coords t) ((dat2 V c).after 2 t) = _
  rw [after2_2]
  obtain ⟨e0, e1, e2, e3, e4, e5, e6, e7, e8, e9⟩ := idx_facts t
  funext j
  obtain ⟨u, h, l, d, rfl⟩ : ∃ (u : Fin 1) (h : Fin 16) (l : Fin 512) (d : Fin 64), j = ix4 u h l d :=
    ⟨j 0, j 1, j 2, j 3, eq_ix4 j⟩
  have hu : u.val = 0 := by omega
  refine (congrFun (block_apply (iblk2 V c 0 t) (iblk2 V c 1 t)) (ix4 u h l d)).trans ?_
  show blkFn (iblk2 V c 0 t) (iblk2 V c 1 t) (ix4 u h l d)
    = attnArr (inQ V c) (inV V c) (((cfg2.win 2).blk t).view.emb (ix4 u h l d))
  unfold blkFn attnArr
  refine attend_congr (fun k => ?_) (fun c' k => ?_) ?_
  · show inQ V c (((cfg2.win 0).blk t).view.emb (ix3 0 l (Cert.Spec.feat h k))) = _
    refine congrArg (inQ V c) ?_
    funext a; apply Fin.ext
    match a with
    | ⟨0, _⟩ => show win2_0.index t (0 : Fin 3) * 1 + 1 * 0 = win2_2.index t (0 : Fin 4) * 1 + 1 * u.val; omega
    | ⟨1, _⟩ => show win2_0.index t (1 : Fin 3) * 512 + 1 * l.val = win2_2.index t (2 : Fin 4) * 512 + 1 * l.val; omega
    | ⟨2, _⟩ => show win2_0.index t (2 : Fin 3) * 1024 + 1 * (h.val * 64 + k.val) = (win2_2.index t (1 : Fin 4) * 16 + 1 * h.val) * 64 + k.val; omega
  · show inV V c (((cfg2.win 1).blk t).view.emb (ix3 0 c' (Cert.Spec.feat h k))) = _
    refine congrArg (inV V c) ?_
    funext a; apply Fin.ext
    match a with
    | ⟨0, _⟩ => show win2_1.index t (0 : Fin 3) * 1 + 1 * 0 = win2_2.index t (0 : Fin 4) * 1 + 1 * u.val; omega
    | ⟨1, _⟩ => show win2_1.index t (1 : Fin 3) * 77 + 1 * c'.val = c'.val; omega
    | ⟨2, _⟩ => show win2_1.index t (2 : Fin 3) * 1024 + 1 * (h.val * 64 + k.val) = (win2_2.index t (1 : Fin 4) * 16 + 1 * h.val) * 64 + k.val; omega
  · apply Fin.ext
    show d.val = win2_2.index t (3 : Fin 4) * 64 + 1 * d.val
    omega

/-- An index of the output array is in point `t`'s block iff each coordinate is in the block's range on its axis. -/
theorem mem_blk (t : Fin cfg2.N) (i : S16x16x4096x64.Idx) :
    i ∈ ((cfg2.win 2).blk t).view.set ↔ ∀ a : Fin 4, win2_2.index t a * S1x16x512x64.size a ≤ (i a).val ∧ (i a).val < win2_2.index t a * S1x16x512x64.size a + S1x16x512x64.size a := by
  show i ∈ ((View.whole main_v10).slice (win2_2.rect t)).set ↔ _
  rw [View.set_slice_whole, Rect.mem_set_unit]
  exact Iff.rfl

/-- Every index of the output array is in the block of the point numbered by its batch and its block of positions. -/
theorem cover (i : S16x16x4096x64.Idx) : ∃ t : Fin cfg2.N, (cfg2.win 2).flush t = true ∧ i ∈ ((cfg2.win 2).blk t).view.set := by
  have hi0 : (i 0).val < 16 := (i 0).isLt
  have hi1 : (i 1).val < 16 := (i 1).isLt
  have hi2 : (i 2).val < 4096 := (i 2).isLt
  have hi3 : (i 3).val < 64 := (i 3).isLt
  have hN : cfg2.N = 128 := N_2
  let t : Fin cfg2.N := ⟨8 * (i 0).val + (i 2).val / 512, by rw [hN]; omega⟩
  obtain ⟨e0, e1, e2, e3, e4, e5, e6, e7, e8, e9⟩ := idx_facts t
  have ht : t.val = 8 * (i 0).val + (i 2).val / 512 := rfl
  refine ⟨t, flush2_2 t, ?_⟩
  rw [mem_blk]
  intro a
  match a with
  | ⟨0, _⟩ => show win2_2.index t (0 : Fin 4) * 1 ≤ (i 0).val ∧ (i 0).val < win2_2.index t (0 : Fin 4) * 1 + 1; omega
  | ⟨1, _⟩ => show win2_2.index t (1 : Fin 4) * 16 ≤ (i 1).val ∧ (i 1).val < win2_2.index t (1 : Fin 4) * 16 + 16; omega
  | ⟨2, _⟩ => show win2_2.index t (2 : Fin 4) * 512 ≤ (i 2).val ∧ (i 2).val < win2_2.index t (2 : Fin 4) * 512 + 512; omega
  | ⟨3, _⟩ => show win2_2.index t (3 : Fin 4) * 64 ≤ (i 3).val ∧ (i 3).val < win2_2.index t (3 : Fin 4) * 64 + 64; omega

/-- The output array after the region: the attention of the two arrays as the region finds them. -/
theorem final (c : Dev nD) : (dat2 V c).arrAt 2 cfg2.N = attnArr (inQ V c) (inV V c) :=
  (dat2 V c).arrAt_eq_of_cover 2 _ (fun t _ => flushed_eq V c t) (cover)

end Cert.KernelIdeal.AttnRegion

end
-- ==== Proof.OutRegion.lean ====
/-
  The fourth kernel region, the output linear layer: its output array after the run.

  The region walks 64 row blocks of 1024 rows of the 65536 × 1024 input (the heads' outputs re-read as rows); at each it
  multiplies the block by the whole 1024 × 1024 weight array, adds the bias row, and writes the 1024 × 1024 result back as
  the same row block of the output. So the output array ends as ONE function of the three arrays the region finds: entry
  (r, q) is the sum over k of the input at (r, k) times the weight at (k, q), plus the bias at q.
-/
import proofs.«114058_j80539226735262_2_alg».proof.Proof.Gen.KernelIdeal.Frame
import proofs.«114058_j80539226735262_2_alg».proof.Proof.LibBiasDot

set_option maxRecDepth 16384

noncomputable section

open scoped BigOperators

namespace Cert.KernelIdeal.OutRegion

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Cert.Lib.BiasDot

/-- The body's stored value at row `p`, column `q` of the block: the product's entry plus the bias at `q` (a change
    of float format is the identity on the extended reals, and a cast to the same shape moves nothing). -/
theorem pay_apply (x : FVec Ideal S1024x1024 .bf16) (w : FVec Ideal S1024x1024 .bf16) (b : FVec Ideal S1024 .f32) (p : Fin 1024) (q : Fin 1024) :
    k3_pay1 (F := Ideal) x w b (ix2 p q) = (∑ k : Fin 1024, x (ix2 p k) * w (ix2 k q)) + b (ix1 q) := by
  unfold k3_pay1
  show addf (FloatOps.matmul (DotDims.plain 1024 1024 1024) none (shapeCast S1024x1024 x _) (shapeCast S1024x1024 w _) (constant S1024x1024 .f32 0x00000000#32))
      (broadcastTo S1024x1024 (shapeCast S1x1024 b _) _) (ix2 p q) = _
  rw [shapeCast_self, shapeCast_self]
  exact biasDot_apply none x w b _ _ p q

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The index maps over the grid: the left operand's and the output's row blocks are the point's number; every other
    block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The three arrays as the region finds them, as arrays of extended reals. -/
abbrev inX (c : Dev nD) : S65536x1024.Idx → EReal := V c main_v12
abbrev inW (c : Dev nD) : S1024x1024.Idx → EReal := V c main_v14
abbrev inB (c : Dev nD) : S1024.Idx → EReal := V c main_arg9

/-- What point `t` writes back is block `t` of the linear layer of the three arrays as the region finds them. -/
theorem flushed_eq (c : Dev nD) (t : Fin cfg3.N) :
    (dat3 V c).flushed 3 t = ((cfg3.win 3).blk t).view.read (Elt Ideal)
      (lin (M := 65536) (K := 1024) (N := 1024) (inX V c) (inW V c) (inB V c)) := by
  show (cfg3.win 3).cut (grid3.coords t) ((dat3 V c).after 3 t) = _
  rw [after3_3]
  unfold out3_3
  rw [View.canon_unit_zero hz2]
  simp only [View.ld_unit_zero (S := S1024x1024) hz2, View.ld_unit_zero (S := S1024x1024) hz2, View.ld_unit_zero (S := S1024) hz1]
  obtain ⟨e0, e1, e2, e3, e4, e5, e6⟩ := idx_facts t
  funext j
  obtain ⟨p, q, rfl⟩ : ∃ (p : Fin 1024) (q : Fin 1024), j = ix2 p q := ⟨j 0, j 1, eq_ix2 j⟩
  refine (pay_apply (iblk3 V c 0 t) (iblk3 V c 1 t) (iblk3 V c 2 t) p q).trans ?_
  have hb : ((cfg3.win 2).blk t).view.emb (ix1 q) = ix1 ((((cfg3.win 3).blk t).view.emb (ix2 p q)) 1) := by
    funext a; apply Fin.ext
    match a with
    | ⟨0, _⟩ => show win3_2.index t (0 : Fin 1) * 1024 + 1 * q.val = win3_3.index t (1 : Fin 2) * 1024 + 1 * q.val; omega
  have hx : ∀ k : Fin 1024, ((cfg3.win 0).blk t).view.emb (ix2 p k) = ix2 ((((cfg3.win 3).blk t).view.emb (ix2 p q)) 0) k := fun k => by
    funext a; apply Fin.ext
    match a with
    | ⟨0, _⟩ => show win3_0.index t (0 : Fin 2) * 1024 + 1 * p.val = win3_3.index t (0 : Fin 2) * 1024 + 1 * p.val; omega
    | ⟨1, _⟩ => show win3_0.index t (1 : Fin 2) * 1024 + 1 * k.val = k.val; omega
  have hw : ∀ k : Fin 1024, ((cfg3.win 1).blk t).view.emb (ix2 k q) = ix2 k ((((cfg3.win 3).blk t).view.emb (ix2 p q)) 1) := fun k => by
    funext a; apply Fin.ext
    match a with
    | ⟨0, _⟩ => show win3_1.index t (0 : Fin 2) * 1024 + 1 * k.val = k.val; omega
    | ⟨1, _⟩ => show win3_1.index t (1 : Fin 2) * 1024 + 1 * q.val = win3_3.index t (1 : Fin 2) * 1024 + 1 * q.val; omega
  show (∑ k : Fin 1024, inX V c (((cfg3.win 0).blk t).view.emb (ix2 p k)) * inW V c (((cfg3.win 1).blk t).view.emb (ix2 k q)))
      + inB V c (((cfg3.win 2).blk t).view.emb (ix1 q))
    = (∑ k : Fin 1024, inX V c (ix2 ((((cfg3.win 3).blk t).view.emb (ix2 p q)) 0) k) * inW V c (ix2 k ((((cfg3.win 3).blk t).view.emb (ix2 p q)) 1)))
      + inB V c (ix1 ((((cfg3.win 3).blk t).view.emb (ix2 p q)) 1))
  rw [hb]
  exact congrArg (· + _) (Finset.sum_congr rfl fun k _ => by rw [hx k, hw k]; rfl)

/-- An index of the output array is in point `t`'s block iff each coordinate is in the block's range on its axis. -/
theorem mem_blk (t : Fin cfg3.N) (i : S65536x1024.Idx) :
    i ∈ ((cfg3.win 3).blk t).view.set ↔ ∀ a : Fin 2, win3_3.index t a * S1024x1024.size a ≤ (i a).val ∧ (i a).val < win3_3.index t a * S1024x1024.size a + S1024x1024.size a := by
  show i ∈ ((View.whole main_v15).slice (win3_3.rect t)).set ↔ _
  rw [View.set_slice_whole, Rect.mem_set_unit]
  exact Iff.rfl

/-- Every index of the output array is in the block of the point numbered by its row block. -/
theorem cover (i : S65536x1024.Idx) : ∃ t : Fin cfg3.N, (cfg3.win 3).flush t = true ∧ i ∈ ((cfg3.win 3).blk t).view.set := by
  have hi0 : (i 0).val < 65536 := (i 0).isLt
  have hi1 : (i 1).val < 1024 := (i 1).isLt
  have hN : cfg3.N = 64 := N_3
  let t : Fin cfg3.N := ⟨(i 0).val / 1024, by rw [hN]; omega⟩
  obtain ⟨e0, e1, e2, e3, e4, e5, e6⟩ := idx_facts t
  have ht : t.val = (i 0).val / 1024 := rfl
  refine ⟨t, flush3_3 t, ?_⟩
  rw [mem_blk]
  intro a
  match a with
  | ⟨0, _⟩ => show win3_3.index t (0 : Fin 2) * 1024 ≤ (i 0).val ∧ (i 0).val < win3_3.index t (0 : Fin 2) * 1024 + 1024; omega
  | ⟨1, _⟩ => show win3_3.index t (1 : Fin 2) * 1024 ≤ (i 1).val ∧ (i 1).val < win3_3.index t (1 : Fin 2) * 1024 + 1024; omega

/-- The output array after the region: the linear layer of the three arrays as the region finds them. -/
theorem final (c : Dev nD) : (dat3 V c).arrAt 3 cfg3.N
    = lin (M := 65536) (K := 1024) (N := 1024) (inX V c) (inW V c) (inB V c) :=
  (dat3 V c).arrAt_eq_of_cover 3 _ (fun t _ => flushed_eq V c t) (cover)

end Cert.KernelIdeal.OutRegion

end
-- ==== Proof.FoldB.lean ====
/-
  The buffers from the attention region to the return, as functions of the argument arrays: the result is `Spec.out`.

  The attention region leaves, at (batch, head, position, lane), the head's softmax-weighted sum of the context rows:
  `Spec.heads`. Two reshapes re-read each batch's (head, position, lane) block row-major as 4096 rows of 1024 columns
  and flatten the batches: row `4096·b + l`, column `e` holds the entry whose position in the batch's block is
  `1024·l + e`, which is `Spec.rows`. The last region is the output linear layer over those rows with the transposed
  output weights, and the final reshape splits the rows back into (batch, position).
-/
import proofs.«114058_j80539226735262_2_alg».proof.Proof.FoldA
import proofs.«114058_j80539226735262_2_alg».proof.Proof.AttnRegion
import proofs.«114058_j80539226735262_2_alg».proof.Proof.OutRegion

set_option maxRecDepth 16384

noncomputable section

open scoped BigOperators

namespace Cert.KernelIdeal.Fold

open Cert.KernelIdeal Cert.KernelIdeal.Gen
open Idealize.ShloMosaic Idealize.ShloMosaic.TcCoe Idealize.ShloMosaic.ValueIdx Idealize.SL.Sem
open Idealize.ShloMosaic.StableHlo
open Cert.Lib.BiasDot Cert.Lib.Reshape

variable (m : (ℓ : Loc nD τ sig) → Buf (Elt Ideal) ℓ) (ρ : Dev nD → PrngReg)

/-! ## The attention region (region 2) -/

/-- The heads' outputs after the attention region: `Spec.heads` at (batch, head, position, lane). -/
theorem heads_apply (c : Dev nD) (b h : Fin 16) (l : Fin 4096) (d : Fin 64) :
    (W6 m ρ c (Proc.devRef .tc main_v10) : S16x16x4096x64.Idx → EReal) (ix4 b h l d)
      = Spec.heads (A0 m c) (A1 m c) (A2 m c) (A3 m c) (A6 m c) (A7 m c) b h l d := by
  have hh := (W6_arr m ρ c 2).trans (AttnRegion.final (V5 m ρ) c)
  rw [show (W6 m ρ c (Proc.devRef .tc main_v10) : S16x16x4096x64.Idx → EReal) = _ from hh]
  show Spec.attend (fun d' => (V5 m ρ c main_v8 : S16x4096x1024.Idx → EReal) (ix3 b l (Spec.feat h d')))
      (fun cc d' => (V5 m ρ c main_v9 : S16x77x1024.Idx → EReal) (ix3 b cc (Spec.feat h d'))) d = _
  unfold Spec.heads
  exact congrArg₂ (fun Q Vv => Spec.attend Q Vv d) (funext fun d' => q3_apply m ρ c b l _)
    (funext fun cc => funext fun d' => v3_apply m ρ c b cc _)

/-! ## The output layer (region 3) -/

/-- The heads' outputs re-read as rows: row `4096·b + l`, column `e` holds `Spec.rows` at `(b, l, e)`. -/
theorem rows_apply (c : Dev nD) (b : Fin 16) (l : Fin 4096) (e : Fin 1024) (r : Fin 65536) (hr : r.val = b.val * 4096 + l.val) :
    OutRegion.inX (V7 m ρ) c (ix2 r e) = Spec.rows (A0 m c) (A1 m c) (A2 m c) (A3 m c) (A6 m c) (A7 m c) b l e := by
  have h : OutRegion.inX (V7 m ρ) c
      = shapeCast S65536x1024
          (shapeCast S16x4096x1024 (W6 m ρ c (Proc.devRef .tc main_v10) : S16x16x4096x64.Idx → EReal)
            shapeCasts_S16x16x4096x64_S16x4096x1024)
          shapeCasts_S16x4096x1024_S65536x1024 := by
    show StableHlo.after hostOps3 (W6 m ρ c) (Proc.devRef .tc main_v12) = _
    after_results
    rfl
  have hb := b.isLt; have hl := l.isLt; have he := e.isLt
  rw [h, merge_apply _ _ b l e r hr,
    four_three_apply _ _ b l e b (Spec.flatHead l e) (Spec.flatPos l e) (Spec.flatLane l e) (by
      show ((b.val * 16 + (l.val * 1024 + e.val) / 262144) * 4096 + (l.val * 1024 + e.val) % 262144 / 64) * 64
          + (l.val * 1024 + e.val) % 64 = (b.val * 4096 + l.val) * 1024 + e.val
      omega)]
  exact heads_apply m ρ c b _ _ _

/-- No operation and no region before the last stretch writes the output weights. -/
theorem arg8_kept (c : Dev nD) : W6 m ρ c (Proc.devRef .tc main_arg8) = W0 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := by stretch_keeps
    _ = W3 m ρ c (Proc.devRef .tc main_arg8) := W4_of_ne m ρ c main_arg8 (by decide)
    _ = W2 m ρ c (Proc.devRef .tc main_arg8) := by stretch_keeps
    _ = W1 m ρ c (Proc.devRef .tc main_arg8) := W2_of_ne m ρ c main_arg8 (by decide)
    _ = W0 m ρ c (Proc.devRef .tc main_arg8) := by stretch_keeps

/-- Nor the output bias, up to the last region's entry. -/
theorem arg9_kept (c : Dev nD) : W7 m ρ c (Proc.devRef .tc main_arg9) = W0 m ρ c (Proc.devRef .tc main_arg9) :=
  calc W7 m ρ c (Proc.devRef .tc main_arg9)
    _ = W6 m ρ c (Proc.devRef .tc main_arg9) := by stretch_keeps
    _ = W5 m ρ c (Proc.devRef .tc main_arg9) := W6_of_ne m ρ c main_arg9 (by decide)
    _ = W4 m ρ c (Proc.devRef .tc main_arg9) := by stretch_keeps
    _ = W3 m ρ c (Proc.devRef .tc main_arg9) := W4_of_ne m ρ c main_arg9 (by decide)
    _ = W2 m ρ c (Proc.devRef .tc main_arg9) := by stretch_keeps
    _ = W1 m ρ c (Proc.devRef .tc main_arg9) := W2_of_ne m ρ c main_arg9 (by decide)
    _ = W0 m ρ c (Proc.devRef .tc main_arg9) := by stretch_keeps

/-- The transposed output weights. -/
theorem wo_eq (c : Dev nD) : OutRegion.inW (V7 m ρ) c
    = (truncf .bf16 (transpose S1024x1024 [1, 0] (A8 m c) transposes_S1024x1024_S1024x1024_1_0 : FVec Ideal S1024x1024 .f32) bitsLt_bf16_f32 : FVec Ideal S1024x1024 .bf16) := by
  show StableHlo.after hostOps3 (W6 m ρ c) (Proc.devRef .tc main_v14) = _
  after_results
  rw [arg8_kept]

/-- The output bias. -/
theorem bo_eq (c : Dev nD) : OutRegion.inB (V7 m ρ) c = A9 m c := by
  show W7 m ρ c (Proc.devRef .tc main_arg9) = _
  rw [arg9_kept]

/-- The output rows after region 3: row `4096·b + l`, feature `f` holds `Spec.outAt` at `(b, l, f)`. -/
theorem out_apply (c : Dev nD) (b : Fin 16) (l : Fin 4096) (f : Fin 1024) (r : Fin 65536) (hr : r.val = b.val * 4096 + l.val) :
    (W8 m ρ c (Proc.devRef .tc main_v15) : S65536x1024.Idx → EReal) (ix2 r f)
      = Spec.outAt (A0 m c) (A1 m c) (A2 m c) (A3 m c) (A6 m c) (A7 m c) (A8 m c) (A9 m c) b l f := by
  have h := (W8_arr m ρ c 3).trans (OutRegion.final (V7 m ρ) c)
  rw [show (W8 m ρ c (Proc.devRef .tc main_v15) : S65536x1024.Idx → EReal) = _ from h, lin_apply, wo_eq, bo_eq]
  unfold Spec.outAt
  refine congrArg (· + _) (Finset.sum_congr rfl fun e _ => ?_)
  rw [rows_apply m ρ c b l e r hr, truncf_apply, transpose_ix2_apply]

/-! ## The result -/

/-- THE KERNEL COMPUTES `Spec.out`: the result array at the return, as a function of the argument arrays. -/
theorem result_eq (c : Dev nD) :
    (W9 m ρ c (Proc.devRef .tc main_v16) : S16x4096x1024.Idx → EReal)
      = Spec.out (A0 m c) (A1 m c) (A2 m c) (A3 m c) (A6 m c) (A7 m c) (A8 m c) (A9 m c) := by
  have h : (W9 m ρ c (Proc.devRef .tc main_v16) : S16x4096x1024.Idx → EReal)
      = shapeCast S16x4096x1024 (W8 m ρ c (Proc.devRef .tc main_v15) : S65536x1024.Idx → EReal) shapeCasts_S65536x1024_S16x4096x1024 := by
    show StableHlo.after hostOps4 (W8 m ρ c) (Proc.devRef .tc main_v16) = _
    after_results
    rfl
  rw [h]
  funext i
  obtain ⟨b, l, f, rfl⟩ : ∃ (b : Fin 16) (l : Fin 4096) (f : Fin 1024), i = ix3 b l f := ⟨i 0, i 1, i 2, eq_ix3 i⟩
  have hb := b.isLt; have hl := l.isLt
  rw [split_apply _ _ b l f ⟨b.val * 4096 + l.val, by omega⟩ rfl]
  exact out_apply m ρ c b l f _ rfl

end Cert.KernelIdeal.Fold

end
-- ==== Proof.RefSide.lean ====
/-
  The reference program computes the function `Spec.out`.

  The reference is read one operation at a time, from the inside out. Its query and value layers are a
  contraction plus a broadcast bias. A reshape to (batch, position, head, lane) followed by a transposition to
  (batch, head, position, lane) makes feature `64·h + d` lane `d` of head `h`. The scores are a batched
  contraction over the lanes divided by 8, which on the extended reals is the product with 1/8. The softmax
  takes the row's maximum from minus infinity, takes the maximum with minus infinity once more (which changes
  nothing, a maximum taken from `b` being at least `b`), subtracts, exponentiates, sums from zero and divides.
  The weighted sum over the 77 context rows follows, then a reshape of (batch, head, position, lane) to
  (batch, row, column), which re-reads each batch's block row-major, and the output layer.
-/
import proofs.«114058_j80539226735262_2_alg».proof.Proof.Gen.ReferenceIdeal.Read
import proofs.«114058_j80539226735262_2_alg».proof.Proof.Spec

noncomputable section

open scoped BigOperators

namespace Cert.RefSide

open Cert.ReferenceIdeal Cert.ReferenceIdeal.Gen Cert.ReferenceIdeal.Read Idealize.ShloMosaic Idealize.ShloMosaic.ValueIdx

variable (x0 : (⟨S16x4096x1024, .f32⟩ : BufTy).Contents (Elt Ideal)) (x1 : (⟨S16x77x768, .f32⟩ : BufTy).Contents (Elt Ideal))
  (x2 : (⟨S1024x1024, .f32⟩ : BufTy).Contents (Elt Ideal)) (x3 : (⟨S1024, .f32⟩ : BufTy).Contents (Elt Ideal))
  (x6 : (⟨S1024x768, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))

/-! ## The two linear layers -/

/-- The query layer's contraction reads the input at (b, l, k) … -/
theorem lidx_v0 (b : Fin 16) (l : Fin 4096) (f k : Fin 1024) : lidx_main_v0 (ix3 b l f) k = ix3 b l k :=
  funext fun a => by match a with | ⟨0, _⟩ => rfl | ⟨1, _⟩ => rfl | ⟨2, _⟩ => rfl
/-- … and the weight at (f, k). -/
theorem ridx_v0 (b : Fin 16) (l : Fin 4096) (f k : Fin 1024) : ridx_main_v0 (ix3 b l f) k = ix2 f k :=
  funext fun a => by match a with | ⟨0, _⟩ => rfl | ⟨1, _⟩ => rfl
/-- The broadcast bias is read at the feature. -/
theorem idx_v1v2 (b : Fin 16) (l : Fin 4096) (f : Fin 1024) : idx_main_v1 (idx_main_v2 (ix3 b l f)) = ix1 f :=
  funext fun a => by match a with | ⟨0, _⟩ => rfl

/-- The reference's query layer is `Spec.query`. -/
theorem v3_eq (b : Fin 16) (l : Fin 4096) (f : Fin 1024) :
    val_main_v3 (F := Ideal) x0 x2 x3 (ix3 b l f) = Spec.query x0 x2 x3 b l f := by
  rw [val_main_v3_apply, val_main_v0_apply, val_main_v2_apply, val_main_v1_apply, Ideal.addf_def, idx_v1v2]
  simp only [lidx_v0, ridx_v0]
  rfl

theorem lidx_v8 (b : Fin 16) (c : Fin 77) (f : Fin 1024) (k : Fin 768) : lidx_main_v8 (ix3 b c f) k = ix3 b c k :=
  funext fun a => by match a with | ⟨0, _⟩ => rfl | ⟨1, _⟩ => rfl | ⟨2, _⟩ => rfl
theorem ridx_v8 (b : Fin 16) (c : Fin 77) (f : Fin 1024) (k : Fin 768) : ridx_main_v8 (ix3 b c f) k = ix2 f k :=
  funext fun a => by match a with | ⟨0, _⟩ => rfl | ⟨1, _⟩ => rfl
theorem idx_v9v10 (b : Fin 16) (c : Fin 77) (f : Fin 1024) : idx_main_v9 (idx_main_v10 (ix3 b c f)) = ix1 f :=
  funext fun a => by match a with | ⟨0, _⟩ => rfl

/-- The reference's value layer is `Spec.value`. -/
theorem v11_eq (b : Fin 16) (c : Fin 77) (f : Fin 1024) :
    val_main_v11 (F := Ideal) x1 x6 x7 (ix3 b c f) = Spec.value x1 x6 x7 b c f := by
  rw [val_main_v11_apply, val_main_v8_apply, val_main_v10_apply, val_main_v9_apply, Ideal.addf_def, idx_v9v10]
  simp only [lidx_v8, ridx_v8]
  rfl

/-! ## Splitting the features into heads -/

/-- Through the transposition and the reshape, (batch, head, position, lane) reads the query layer at
    (batch, position, feature `64·h + d`). -/
theorem idx_v12v13 (b h : Fin 16) (l : Fin 4096) (d : Fin 64) :
    idx_main_v12 (idx_main_v13 (ix4 b h l d)) = ix3 b l (Spec.feat h d) := by
  have hb := b.isLt; have hh := h.isLt; have hl := l.isLt; have hd := d.isLt
  funext a; apply Fin.ext
  match a with
  | ⟨0, _⟩ => show (((b.val * 4096 + l.val) * 16 + h.val) * 64 + d.val) / 4194304 = b.val; omega
  | ⟨1, _⟩ => show (((b.val * 4096 + l.val) * 16 + h.val) * 64 + d.val) / 1024 % 4096 = l.val; omega
  | ⟨2, _⟩ => show (((b.val * 4096 + l.val) * 16 + h.val) * 64 + d.val) % 1024 = h.val * 64 + d.val; omega

theorem v13_eq (b h : Fin 16) (l : Fin 4096) (d : Fin 64) :
    val_main_v13 (F := Ideal) x0 x2 x3 (ix4 b h l d) = Spec.query x0 x2 x3 b l (Spec.feat h d) := by
  rw [val_main_v13_apply, val_main_v12_apply, idx_v12v13, v3_eq]

theorem idx_v14v15 (b h : Fin 16) (c : Fin 77) (d : Fin 64) :
    idx_main_v14 (idx_main_v15 (ix4 b h c d)) = ix3 b c (Spec.feat h d) := by
  have hb := b.isLt; have hh := h.isLt; have hc := c.isLt; have hd := d.isLt
  funext a; apply Fin.ext
  match a with
  | ⟨0, _⟩ => show (((b.val * 77 + c.val) * 16 + h.val) * 64 + d.val) / 78848 = b.val; omega
  | ⟨1, _⟩ => show (((b.val * 77 + c.val) * 16 + h.val) * 64 + d.val) / 1024 % 77 = c.val; omega
  | ⟨2, _⟩ => show (((b.val * 77 + c.val) * 16 + h.val) * 64 + d.val) % 1024 = h.val * 64 + d.val; omega

theorem v15_eq (b h : Fin 16) (c : Fin 77) (d : Fin 64) :
    val_main_v15 (F := Ideal) x1 x6 x7 (ix4 b h c d) = Spec.value x1 x6 x7 b c (Spec.feat h d) := by
  rw [val_main_v15_apply, val_main_v14_apply, idx_v14v15, v11_eq]

/-! ## The scores -/

theorem lidx_v16 (b h : Fin 16) (l : Fin 4096) (c : Fin 77) (k : Fin 64) : lidx_main_v16 (ix4 b h l c) k = ix4 b h l k :=
  funext fun a => by match a with | ⟨0, _⟩ => rfl | ⟨1, _⟩ => rfl | ⟨2, _⟩ => rfl | ⟨3, _⟩ => rfl
theorem ridx_v16 (b h : Fin 16) (l : Fin 4096) (c : Fin 77) (k : Fin 64) : ridx_main_v16 (ix4 b h l c) k = ix4 b h c k :=
  funext fun a => by match a with | ⟨0, _⟩ => rfl | ⟨1, _⟩ => rfl | ⟨2, _⟩ => rfl | ⟨3, _⟩ => rfl

/-- The word 0x41000000 denotes 8 and the word 0x3E000000 denotes 1/8, so dividing by the first is multiplying by the
    second, for every extended real. -/
theorem div_eight (s : EReal) :
    Ideal.div s (Ideal.ofBits .f32 0x41000000#32) = s * Ideal.ofBits .f32 0x3E000000#32 := by
  have h8 : Ideal.ofBits .f32 0x41000000#32 = ((8 : ℝ) : EReal) := by
    simp [Ideal.ofBits, Ideal.ieee, -EReal.coe_mul]; norm_num
  have h18 : Ideal.ofBits .f32 0x3E000000#32 = ((1 / 8 : ℝ) : EReal) := by
    simp [Ideal.ofBits, Ideal.ieee, -EReal.coe_mul]; norm_num
  rw [h8, h18, Ideal.div_coe (by norm_num)]

/-- The 77 scores of batch `b`, head `h`, query row `l`. -/
def scores (b h : Fin 16) (l : Fin 4096) : Fin 77 → EReal :=
  Spec.scaled (fun d' => Spec.query x0 x2 x3 b l (Spec.feat h d')) (fun c d' => Spec.value x1 x6 x7 b c (Spec.feat h d'))

/-- The reference's scaled scores are `Spec.scaled`. -/
theorem v18_eq (b h : Fin 16) (l : Fin 4096) (c : Fin 77) :
    val_main_v18 (F := Ideal) x0 x1 x2 x3 x6 x7 (ix4 b h l c) = scores x0 x1 x2 x3 x6 x7 b h l c := by
  rw [val_main_v18_apply, val_main_v16_apply, val_main_v17_apply, val_main_cst_apply, Ideal.hostDivf_def, Ideal.ofBits_def,
    div_eight]
  simp only [lidx_v16, ridx_v16, v13_eq, v15_eq]
  rfl

/-! ## The softmax -/

/-- The reduced index (b, h, l) with the context row `k` put back on the last axis is (b, h, l, k). -/
theorem lift_v19 (hR : S16x16x4096x77.Reduces [3] S16x16x4096) (b h : Fin 16) (l : Fin 4096)
    (k : Fin (S16x16x4096x77.size 3)) : hR.lift (ix3 b h l) k = ix4 b h l (⟨k.val, k.isLt⟩ : Fin 77) := by
  funext c; apply Fin.ext
  fin_cases c <;> rfl

/-- The reference's row maximum, a maximum taken from minus infinity over the 77 scores, is `Spec.rowMax`. -/
theorem v19_eq (b h : Fin 16) (l : Fin 4096) :
    val_main_v19 (F := Ideal) x0 x1 x2 x3 x6 x7 (ix3 b h l) = Spec.rowMax (scores x0 x1 x2 x3 x6 x7 b h l) := by
  have hR : S16x16x4096x77.Reduces [3] S16x16x4096 := by decide
  unfold val_main_v19
  rw [Host.reduce_eq_fold_single FloatOps.maximumf _ _ reducesTo_S16x16x4096x77_S16x16x4096_d3 hR h_S_]
  have hf : (val_main_v18 (F := Ideal) x0 x1 x2 x3 x6 x7 ∘ hR.lift (ix3 b h l))
      = fun k : Fin 77 => scores x0 x1 x2 x3 x6 x7 b h l k :=
    funext fun k => by rw [Function.comp_apply, lift_v19, v18_eq]; rfl
  rw [val_main_cst_0_apply, Ideal.ofBits_def]
  unfold Spec.rowMax
  exact congrArg (fun f => Finset.fold max (Ideal.ofBits .f32 0xFF800000#32) f (Finset.univ : Finset (Fin 77))) hf

/-- The maximum of minus infinity with the row maximum is the row maximum: a maximum taken from `b` is at least `b`. -/
theorem v21_eq (b h : Fin 16) (l : Fin 4096) :
    val_main_v21 (F := Ideal) x0 x1 x2 x3 x6 x7 (ix3 b h l) = Spec.rowMax (scores x0 x1 x2 x3 x6 x7 b h l) := by
  rw [val_main_v21_apply, val_main_v20_apply, val_main_cst_1_apply, Ideal.ofBits_def, Ideal.maximumf_def, v19_eq]
  exact max_eq_right ((Finset.le_fold_max _).mpr (Or.inl le_rfl))

theorem idx_v22v23 (b h : Fin 16) (l : Fin 4096) (c : Fin 77) : idx_main_v22 (idx_main_v23 (ix4 b h l c)) = ix3 b h l :=
  funext fun a => by match a with | ⟨0, _⟩ => rfl | ⟨1, _⟩ => rfl | ⟨2, _⟩ => rfl

/-- The exponential of a score lowered by the row maximum. -/
theorem v25_eq (b h : Fin 16) (l : Fin 4096) (c : Fin 77) :
    val_main_v25 (F := Ideal) x0 x1 x2 x3 x6 x7 (ix4 b h l c)
      = Ideal.exp (scores x0 x1 x2 x3 x6 x7 b h l c - Spec.rowMax (scores x0 x1 x2 x3 x6 x7 b h l)) := by
  rw [val_main_v25_apply, val_main_v24_apply, val_main_v23_apply, val_main_v22_apply, idx_v22v23, v21_eq, v18_eq,
    Ideal.hostUnary_exp_def, Ideal.subf_def]

theorem idx_v26 (b h : Fin 16) (l : Fin 4096) (k : Fin 77) : idx_main_v26 (ix3 b h l) k = ix4 b h l k :=
  funext fun a => by match a with | ⟨0, _⟩ => rfl | ⟨1, _⟩ => rfl | ⟨2, _⟩ => rfl | ⟨3, _⟩ => rfl

/-- The row's sum of exponentials, taken from the zero word. -/
theorem v26_eq (b h : Fin 16) (l : Fin 4096) :
    val_main_v26 (F := Ideal) x0 x1 x2 x3 x6 x7 (ix3 b h l)
      = ∑ c' : Fin 77, Ideal.exp (scores x0 x1 x2 x3 x6 x7 b h l c' - Spec.rowMax (scores x0 x1 x2 x3 x6 x7 b h l)) := by
  rw [val_main_v26_apply, val_main_cst_2_apply, Ideal.ofBits_def, Ideal.ofBits_zero_f32, zero_add]
  simp only [idx_v26, v25_eq]

theorem idx_v27v28 (b h : Fin 16) (l : Fin 4096) (c : Fin 77) : idx_main_v27 (idx_main_v28 (ix4 b h l c)) = ix3 b h l :=
  funext fun a => by match a with | ⟨0, _⟩ => rfl | ⟨1, _⟩ => rfl | ⟨2, _⟩ => rfl

/-- The reference's softmax weights are `Spec.weight`. -/
theorem v29_eq (b h : Fin 16) (l : Fin 4096) (c : Fin 77) :
    val_main_v29 (F := Ideal) x0 x1 x2 x3 x6 x7 (ix4 b h l c) = Spec.weight (scores x0 x1 x2 x3 x6 x7 b h l) c := by
  rw [val_main_v29_apply, val_main_v28_apply, val_main_v27_apply, idx_v27v28, v26_eq, v25_eq, Ideal.hostDivf_def]
  rfl

/-! ## The heads' outputs, re-read row-major, and the output layer -/

theorem lidx_v30 (b h : Fin 16) (l : Fin 4096) (d : Fin 64) (k : Fin 77) : lidx_main_v30 (ix4 b h l d) k = ix4 b h l k :=
  funext fun a => by match a with | ⟨0, _⟩ => rfl | ⟨1, _⟩ => rfl | ⟨2, _⟩ => rfl | ⟨3, _⟩ => rfl
theorem ridx_v30 (b h : Fin 16) (l : Fin 4096) (d : Fin 64) (k : Fin 77) : ridx_main_v30 (ix4 b h l d) k = ix4 b h k d :=
  funext fun a => by match a with | ⟨0, _⟩ => rfl | ⟨1, _⟩ => rfl | ⟨2, _⟩ => rfl | ⟨3, _⟩ => rfl

/-- The reference's weighted sum over the context rows is `Spec.heads`. -/
theorem v30_eq (b h : Fin 16) (l : Fin 4096) (d : Fin 64) :
    val_main_v30 (F := Ideal) x0 x1 x2 x3 x6 x7 (ix4 b h l d) = Spec.heads x0 x1 x2 x3 x6 x7 b h l d := by
  rw [val_main_v30_apply]
  simp only [lidx_v30, ridx_v30, v29_eq, v15_eq]
  rfl

/-- The reshape of (batch, head, position, lane) to (batch, row, column) reads row `l`, column `e` of batch `b` at the
    head, position and lane of linear position `1024·l + e` in the batch's block. -/
theorem idx_v31 (b : Fin 16) (l : Fin 4096) (e : Fin 1024) :
    idx_main_v31 (ix3 b l e) = ix4 b (Spec.flatHead l e) (Spec.flatPos l e) (Spec.flatLane l e) := by
  have hb := b.isLt; have hl := l.isLt; have he := e.isLt
  funext a; apply Fin.ext
  match a with
  | ⟨0, _⟩ => show ((b.val * 4096 + l.val) * 1024 + e.val) / 4194304 = b.val; omega
  | ⟨1, _⟩ => show ((b.val * 4096 + l.val) * 1024 + e.val) / 262144 % 16 = (l.val * 1024 + e.val) / 262144; omega
  | ⟨2, _⟩ => show ((b.val * 4096 + l.val) * 1024 + e.val) / 64 % 4096 = (l.val * 1024 + e.val) % 262144 / 64; omega
  | ⟨3, _⟩ => show ((b.val * 4096 + l.val) * 1024 + e.val) % 64 = (l.val * 1024 + e.val) % 64; omega

/-- The reference's reshaped heads are `Spec.rows`. -/
theorem v31_eq (b : Fin 16) (l : Fin 4096) (e : Fin 1024) :
    val_main_v31 (F := Ideal) x0 x1 x2 x3 x6 x7 (ix3 b l e) = Spec.rows x0 x1 x2 x3 x6 x7 b l e := by
  rw [val_main_v31_apply, idx_v31, v30_eq]
  rfl

theorem lidx_v32 (b : Fin 16) (l : Fin 4096) (f k : Fin 1024) : lidx_main_v32 (ix3 b l f) k = ix3 b l k :=
  funext fun a => by match a with | ⟨0, _⟩ => rfl | ⟨1, _⟩ => rfl | ⟨2, _⟩ => rfl
theorem ridx_v32 (b : Fin 16) (l : Fin 4096) (f k : Fin 1024) : ridx_main_v32 (ix3 b l f) k = ix2 f k :=
  funext fun a => by match a with | ⟨0, _⟩ => rfl | ⟨1, _⟩ => rfl
theorem idx_v33v34 (b : Fin 16) (l : Fin 4096) (f : Fin 1024) : idx_main_v33 (idx_main_v34 (ix3 b l f)) = ix1 f :=
  funext fun a => by match a with | ⟨0, _⟩ => rfl

/-- The reference's output layer is `Spec.outAt`. -/
theorem v35_eq (b : Fin 16) (l : Fin 4096) (f : Fin 1024) :
    val_main_v35 (F := Ideal) x0 x1 x2 x3 x6 x7 x8 x9 (ix3 b l f) = Spec.outAt x0 x1 x2 x3 x6 x7 x8 x9 b l f := by
  rw [val_main_v35_apply, val_main_v32_apply, val_main_v34_apply, val_main_v33_apply, Ideal.addf_def, idx_v33v34]
  simp only [lidx_v32, ridx_v32, v31_eq]
  rfl

/-- THE REFERENCE COMPUTES `Spec.out`. -/
theorem ref_eq (x0 : (⟨Cert.ReferenceIdeal.S16x4096x1024, .f32⟩ : BufTy).Contents (Elt Ideal)) (x1 : (⟨S16x77x768, .f32⟩ : BufTy).Contents (Elt Ideal)) (x2 : (⟨S1024x1024, .f32⟩ : BufTy).Contents (Elt Ideal)) (x3 : (⟨S1024, .f32⟩ : BufTy).Contents (Elt Ideal)) (x6 : (⟨S1024x768, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) :
    Cert.ReferenceIdeal.Read.val_main_v35 (F := Ideal) x0 x1 x2 x3 x6 x7 x8 x9 = Cert.Spec.out x0 x1 x2 x3 x6 x7 x8 x9 := by
  funext i
  obtain ⟨b, l, f, rfl⟩ : ∃ (b : Fin 16) (l : Fin 4096) (f : Fin 1024), i = ix3 b l f := ⟨i 0, i 1, i 2, eq_ix3 i⟩
  exact (v35_eq x0 x1 x2 x3 x6 x7 x8 x9 b l f).trans rfl

end Cert.RefSide

end
-- ==== Proof.lean ====
/-
  The kernel and its reference compute the same cross-attention, entry by entry, on the extended reals.

  Both programs compute `Cert.Spec.out` of the argument arrays: a query layer on the sequence, a value layer on the
  context (whose rows serve as keys and as values), sixteen heads of 64 lanes with scores scaled by one eighth and a
  softmax over the 77 context rows, the heads' outputs re-read row-major as rows of 1024 columns, and an output layer.
  The kernel does this in four regions (two linear layers, the attention block, the output layer) joined by reshapes
  and transposed, narrowed weights; the reference in plain array operations. The kernel multiplies the scores by the
  word of 1/8 where the reference divides by the word of 8, and the reference takes one more maximum with minus
  infinity: both are the same function on the extended reals, with no finiteness needed, so the precondition is
  never opened. Each program's frame is its run with the result forgotten; the idealization rewrote nothing.
-/
import proofs.«114058_j80539226735262_2_alg».proof.Defs
import proofs.«114058_j80539226735262_2_alg».proof.Proof.Gen.Kernel
import proofs.«114058_j80539226735262_2_alg».proof.Proof.Gen.Kernel.Skeleton
import proofs.«114058_j80539226735262_2_alg».proof.Proof.Gen.Kernel.Launch
import proofs.«114058_j80539226735262_2_alg».proof.Proof.Gen.Kernel.Points
import proofs.«114058_j80539226735262_2_alg».proof.Proof.Gen.Kernel.Frame
import proofs.«114058_j80539226735262_2_alg».proof.Proof.Gen.KernelIdeal
import proofs.«114058_j80539226735262_2_alg».proof.Proof.Gen.KernelIdeal.Skeleton
import proofs.«114058_j80539226735262_2_alg».proof.Proof.Gen.KernelIdeal.Launch
import proofs.«114058_j80539226735262_2_alg».proof.Proof.Gen.KernelIdeal.Points
import proofs.«114058_j80539226735262_2_alg».proof.Proof.Gen.KernelIdeal.Frame
import proofs.«114058_j80539226735262_2_alg».proof.Proof.Gen.ReferenceIdeal
import proofs.«114058_j80539226735262_2_alg».proof.Proof.Gen.ReferenceIdeal.Run
import proofs.«114058_j80539226735262_2_alg».proof.Proof.Gen.ReferenceIdeal.Read
import proofs.«114058_j80539226735262_2_alg».proof.Proof.Gen.Pre_finite_inputs
import proofs.«114058_j80539226735262_2_alg».proof.Proof.KernelRun
import proofs.«114058_j80539226735262_2_alg».proof.Proof.FoldB
import proofs.«114058_j80539226735262_2_alg».proof.Proof.RefSide
import Idealize.ShloMosaic.Adequacy
import Idealize.ShloMosaic.Init

noncomputable section

namespace Cert.Proof

open Idealize.ShloMosaic Idealize.SL.Sem

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at `Spec.out` of the arguments:
    the kernel by its run read back through its regions, the reference by its run read one operation at a time. -/
theorem algebraic : Cert.algebraic_KernelIdeal_ReferenceIdeal := by
  intro m ρ m' ρ' _ hagree
  refine ⟨fun c => Cert.Spec.out (Cert.KernelIdeal.Fold.A0 m c) (Cert.KernelIdeal.Fold.A1 m c) (Cert.KernelIdeal.Fold.A2 m c)
      (Cert.KernelIdeal.Fold.A3 m c) (Cert.KernelIdeal.Fold.A6 m c) (Cert.KernelIdeal.Fold.A7 m c) (Cert.KernelIdeal.Fold.A8 m c)
      (Cert.KernelIdeal.Fold.A9 m c), ?_, ?_⟩
  · exact (θ_run Cert.KernelIdeal.defs _ _).mono
      (fun _ h c => ⟨(h c).1.trans (Cert.KernelIdeal.Fold.result_eq m ρ c), (h c).2⟩)
      (Cert.KernelIdeal.RunValue.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, -, -, h6, h7, h8, h9⟩ := hagree c
    rw [Cert.ReferenceIdeal.Read.val_main_v35_eq, Cert.RefSide.ref_eq, h0, h1, h2, h3, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
